-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v27_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S2000x128 : Shape := ⟨2, ![2000, 128]⟩
abbrev S1x128 : Shape := ⟨2, ![1, 128]⟩
abbrev S_ : Shape := ⟨0, ![]⟩
abbrev S600000x1 : Shape := ⟨2, ![600000, 1]⟩
abbrev S4000x128 : Shape := ⟨2, ![4000, 128]⟩

abbrev nBuf : Space → Nat
  | .hbm => 63
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x128, .bf16⟩
  | .hbm, ⟨50, _⟩ => ⟨S600000x128, .bf16⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .bf16⟩
  | .local _ .vmem, ⟨25, _⟩ => ⟨S4000x128, .bf16⟩
  | .local _ .vmem, ⟨26, _⟩ => ⟨S4000x128, .bf16⟩
  | .local _ .vmem, ⟨27, _⟩ => ⟨S4000x128, .bf16⟩
  | .local _ .vmem, ⟨28, _⟩ => ⟨S4000x128, .f32⟩
  | .local _ .vmem, ⟨29, _⟩ => ⟨S4000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v27_2 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  shapeCasts_S4000x128_S4000x128 : S4000x128.ShapeCasts S4000x128
  packedbf16_S4000x128_S4000x128_0_0 : (Rect.unit (s := S4000x128) ![0, 0] S4000x128.size inb_S4000x128_S4000x128_0_0).PackedRows (EltTy.packing .bf16)
  bcast_S_S50000x128 : S_.BroadcastsInDim S50000x128 (![] : Fin 0 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  dot_S4000x128_S128x128_S4000x128_1_0_0_1_n_n_wf : DotDims.WF S4000x128 S128x128 S4000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S600000x128.size a
  hwx1_0 : ∀ i : grid1.Coords, EltTy.bits .f32 = 32 ∨ (Rect.block (s := S600000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S600000x128.size a
  hwx1_3 : ∀ i : grid1.Coords, EltTy.bits .f32 = 32 ∨ (Rect.block (s := S600000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S600000x128.size a
  hwx1_4 : ∀ i : grid1.Coords, EltTy.bits .f32 = 32 ∨ (Rect.block (s := S600000x128) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S600000x128.size a
  hwx1_5 : ∀ i : grid1.Coords, EltTy.bits .f32 = 32 ∨ (Rect.block (s := S600000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S600000x128.size a
  hwx1_6 : ∀ i : grid1.Coords, EltTy.bits .bf16 = 32 ∨ (Rect.block (s := S600000x128) S4000x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S600000x128.size a
  hwx1_7 : ∀ i : grid1.Coords, EltTy.bits .bf16 = 32 ∨ (Rect.block (s := S600000x128) S4000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S600000x128.size a
  hwx1_8 : ∀ i : grid1.Coords, EltTy.bits .f32 = 32 ∨ (Rect.block (s := S600000x128) S4000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S4000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_2) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S128x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x128, .f32⟩
  | .hbm, ⟨58, _⟩ => ⟨S600000x128, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S600000x128, .f32⟩
  | .hbm, ⟨63, _⟩ => ⟨S600000x128, .f32⟩
  | .hbm, ⟨64, _⟩ => ⟨S_, .f32⟩
  | .hbm, ⟨65, _⟩ => ⟨S600000x128, .f32⟩
  | .hbm, ⟨66, _⟩ => ⟨S600000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S600000x1, .i32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S600000x128, .f32⟩
  | .hbm, ⟨101, _⟩ => ⟨S600000x128, .f32⟩
  | .hbm, ⟨102, _⟩ => ⟨S_, .f32⟩
  | .hbm, ⟨103, _⟩ => ⟨S600000x128, .f32⟩
  | .hbm, ⟨104, _⟩ => ⟨S600000x128, .f32⟩
  | .hbm, ⟨105, _⟩ => ⟨S_, .f32⟩
  | .hbm, ⟨106, _⟩ => ⟨S600000x128, .f32⟩
  | .hbm, ⟨107, _⟩ => ⟨S600000x128, .f32⟩
  | .hbm, ⟨108, _⟩ => ⟨S600000x128, .f32⟩
  | .hbm, ⟨109, _⟩ => ⟨S600000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_c_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_1 : Ref sig .tc := ⟨.hbm, 48, rfl⟩
abbrev main_v32 : Ref sig .tc := ⟨.hbm, 49, rfl⟩
abbrev main_v33 : Ref sig .tc := ⟨.hbm, 50, rfl⟩
abbrev main_c_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v65 : Ref sig .tc := ⟨.hbm, 98, rfl⟩
abbrev main_v66 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v67 : Ref sig .tc := ⟨.hbm, 108, rfl⟩
abbrev main_v68 : Ref sig .tc := ⟨.hbm, 109, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The kernel program's run, with its two results named.

  The program is three launches among stretches of host operations. Its run from the launch memory ends with every
  buffer that lives outside the launches at the contents the last segment boundary gives it (the fold `Gen.W6` of the
  host stretches and of each launch's write-backs over the launch memory). Read at the two result buffers this names
  the results; read at an argument it gives the launch contents back.
-/
import proofs.«151684_j46102178955281_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the node result and the edge
    result end at the last boundary's contents, and the arguments end as launched. -/
theorem run_results : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_v27_2) = W6 m ρ c (Proc.devRef .tc main_v27_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       h c _ (mem_uc main_v27_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Run

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.Rows.lean ====
/-
  Rows through a square matrix, plus a bias row; and a block of consecutive rows of an array.

  For an `n × 128` array `x`, a `128 × 128` array `W` and a length-128 row `b`, the array `x·W + b` holds at
  entry `(p, q)` the sum over `k` of `x[p,k]·W[k,q]`, plus `b[q]`. A matrix unit computes it from operands rounded
  to a narrower format (a change of format is the identity on the extended reals) into a zero accumulator, and adds
  the bias as a one-row array repeated over the rows. The value at row `p` depends on row `p` of `x` only, so the
  rows `o … o + r - 1` of `x·W + b` are `x'·W + b` for `x'` those rows of `x`.
-/
import proofs.«151684_j46102178955281_2_alg».proof.Proof.LibPlainMatmul
import Idealize.ShloMosaic.Lib.ValueLayout
import Idealize.ShloMosaic.Lib.Pipeline.Value

noncomputable section

open scoped BigOperators

namespace Cert.Rows

open Idealize.ShloMosaic Idealize.ShloMosaic.ValueIdx

variable {n : Nat}

/-- `x·W + b` at an entry. -/
def affine (x : FVec Ideal ⟨2, ![n, 128]⟩ .f32) (W : FVec Ideal ⟨2, ![128, 128]⟩ .f32) (b : FVec Ideal ⟨1, ![128]⟩ .f32) :
    FVec Ideal ⟨2, ![n, 128]⟩ .f32 :=
  fun i => (∑ k : Fin 128, x (ix2 (n0 := n) (n1 := 128) ⟨(i 0).val, (i 0).isLt⟩ k)
      * W (ix2 (n0 := 128) (n1 := 128) k ⟨(i 1).val, (i 1).isLt⟩))
    + b (ix1 (n := 128) ⟨(i 1).val, (i 1).isLt⟩)

theorem affine_apply (x : FVec Ideal ⟨2, ![n, 128]⟩ .f32) (W : FVec Ideal ⟨2, ![128, 128]⟩ .f32)
    (b : FVec Ideal ⟨1, ![128]⟩ .f32) (p : Fin n) (q : Fin 128) :
    affine x W b (ix2 p q) = (∑ k : Fin 128, x (ix2 p k) * W (ix2 k q)) + b (ix1 q) := rfl

/-- The matrix unit's spelling: both operands rounded to bf16, a zero accumulator, the bias cast to one row and
    repeated over the rows. At every entry it is `x·W + b`. -/
theorem matmul_bias_apply (x : FVec Ideal ⟨2, ![n, 128]⟩ .f32) (W : FVec Ideal ⟨2, ![128, 128]⟩ .f32)
    (b : FVec Ideal ⟨1, ![128]⟩ .f32)
    (hW : (⟨2, ![128, 128]⟩ : Shape).ShapeCasts ⟨2, ![128, 128]⟩)
    (hb : (⟨1, ![128]⟩ : Shape).ShapeCasts ⟨2, ![1, 128]⟩)
    (hb' : (⟨2, ![1, 128]⟩ : Shape).ShapeCasts ⟨2, ![1, 128]⟩)
    (hbr : (⟨2, ![1, 128]⟩ : Shape).Broadcasts ⟨2, ![n, 128]⟩)
    (h16 : FTy.bf16.bits < FTy.f32.bits) (p : Fin n) (q : Fin 128) :
    addf (matmul (F := Ideal) (DotDims.plain n 128 128) none (truncf .bf16 x h16)
          (truncf .bf16 (shapeCast ⟨2, ![128, 128]⟩ W hW) h16) (constant (F := Ideal) ⟨2, ![n, 128]⟩ .f32 0x00000000#32))
        (broadcastTo ⟨2, ![n, 128]⟩ (shapeCast ⟨2, ![1, 128]⟩ (shapeCast ⟨2, ![1, 128]⟩ b hb) hb') hbr) (ix2 p q)
      = affine x W b (ix2 p q) := by
  rw [affine_apply, addf_apply]
  refine congrArg₂ (· + ·) ?_ ?_
  · refine (PlainMatmul.matmul_zero_apply none _ _ p q).trans ?_
    refine Finset.sum_congr rfl fun k _ => ?_
    rw [truncf_apply, truncf_apply, shapeCast_self]
  · rw [broadcastTo_1b_ab_apply, shapeCast_self, shapeCast_a_1a_apply]

/-- Rows `o … o + r - 1` of an array of `n` rows, as an array of `r` rows. -/
def rowsFrom {α : Type} {r : Nat} (o : Nat) (h : o + r ≤ n) (X : (⟨2, ![n, 128]⟩ : Shape).Idx → α) :
    (⟨2, ![r, 128]⟩ : Shape).Idx → α :=
  fun y => X (ix2 (n0 := n) (n1 := 128) ⟨o + (y 0).val, Nat.lt_of_lt_of_le (Nat.add_lt_add_left (y 0).isLt o) h⟩
    ⟨(y 1).val, (y 1).isLt⟩)

theorem rowsFrom_apply {α : Type} {r : Nat} (o : Nat) (h : o + r ≤ n) (X : (⟨2, ![n, 128]⟩ : Shape).Idx → α)
    (p : Fin r) (q : Fin 128) :
    rowsFrom o h X (ix2 p q) = X (ix2 ⟨o + p.val, Nat.lt_of_lt_of_le (Nat.add_lt_add_left p.isLt o) h⟩ q) := rfl

/-- Row `p` of `x'·W + b`, for `x'` the rows of `x` from `o`, is row `o + p` of `x·W + b`. -/
theorem affine_rowsFrom {r : Nat} (o : Nat) (h : o + r ≤ n) (x : FVec Ideal ⟨2, ![n, 128]⟩ .f32)
    (W : FVec Ideal ⟨2, ![128, 128]⟩ .f32) (b : FVec Ideal ⟨1, ![128]⟩ .f32) (p : Fin r) (q : Fin 128) :
    affine (rowsFrom o h x) W b (ix2 p q)
      = affine x W b (ix2 ⟨o + p.val, Nat.lt_of_lt_of_le (Nat.add_lt_add_left p.isLt o) h⟩ q) := rfl

end Cert.Rows

end
-- ==== Proof.NodeProj.lean ====
/-
  The node projections: what the first launch leaves in each of its three output arrays.

  Every grid point `t` of the launch reads rows `2000·t … 2000·t + 1999` of the node features `h` together with a
  whole `128 × 128` matrix and a whole bias row, and writes the same rows of one output array: `h'·W + b` for `h'`
  those rows. A row of `h·W + b` depends on that row of `h` only, and the 25 row blocks fill the 50000 rows, so each
  output array ends holding `h·W + b` for its own matrix and bias.
-/
import proofs.«151684_j46102178955281_2_alg».proof.Proof.Gen.KernelIdeal.Frame
import proofs.«151684_j46102178955281_2_alg».proof.Proof.Rows

noncomputable section

namespace Cert.KernelIdeal.NodeProj

open Idealize.ShloMosaic Idealize.ShloMosaic.TcCoe Idealize.ShloMosaic.ValueIdx Idealize.SL.Sem
open Cert.KernelIdeal Cert.KernelIdeal.Gen Cert.Rows
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The first projection of a block of 2000 rows, at an entry. -/
theorem k0_pay2_apply (x0 : FVec Ideal S2000x128 .f32) (x1 : FVec Ideal S128x128 .f32) (x2 : FVec Ideal S128 .f32)
    (p : Fin 2000) (q : Fin 128) : k0_pay2 (F := Ideal) x0 x1 x2 (ix2 p q) = affine x0 x1 x2 (ix2 p q) :=
  matmul_bias_apply x0 x1 x2 _ _ _ _ _ p q

/-- The second projection of a block of 2000 rows, at an entry. -/
theorem k0_pay3_apply (x0 : FVec Ideal S2000x128 .f32) (x1 : FVec Ideal S128x128 .f32) (x2 : FVec Ideal S128 .f32)
    (p : Fin 2000) (q : Fin 128) : k0_pay3 (F := Ideal) x0 x1 x2 (ix2 p q) = affine x0 x1 x2 (ix2 p q) :=
  matmul_bias_apply x0 x1 x2 _ _ _ _ _ p q

/-- The third projection of a block of 2000 rows, at an entry. -/
theorem k0_pay4_apply (x0 : FVec Ideal S2000x128 .f32) (x1 : FVec Ideal S128x128 .f32) (x2 : FVec Ideal S128 .f32)
    (p : Fin 2000) (q : Fin 128) : k0_pay4 (F := Ideal) x0 x1 x2 (ix2 p q) = affine x0 x1 x2 (ix2 p q) :=
  matmul_bias_apply x0 x1 x2 _ _ _ _ _ p q

/-- Which block of its array each window holds at point `t`: the row windows hold block `t`, the matrix and bias
    windows their whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-- Block `t` of 2000 rows lies inside the 50000 rows. -/
theorem rows_le (t : Fin cfg0.N) : 2000 * t.val + 2000 ≤ 50000 := by
  have h := t.isLt
  have hN : cfg0.N = 25 := N_0
  omega

/-- The row window's block at point `t`: rows `2000·t …` of the node features. -/
theorem blk0_eq (c : Dev nD) (t : Fin cfg0.N) :
    iblk0 V c 0 t = rowsFrom (2000 * t.val) (rows_le t) (V c main_arg0) := by
  obtain ⟨e00, e01, e10, e11, e20, e30, e31, e40, e50, e51, e60, e70, e71, e80, e81, e90, e91⟩ := idx_facts t
  funext y
  show V c main_arg0 (((cfg0.win 0).blk t).view.emb y) = V c main_arg0 _
  refine congrArg (V c main_arg0) (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

/-- The first matrix window holds its whole array at every point. -/
theorem blk1_eq (c : Dev nD) (t : Fin cfg0.N) : iblk0 V c 1 t = V c main_v1 := by
  obtain ⟨e00, e01, e10, e11, e20, e30, e31, e40, e50, e51, e60, e70, e71, e80, e81, e90, e91⟩ := idx_facts t
  funext y
  show V c main_v1 (((cfg0.win 1).blk t).view.emb y) = V c main_v1 y
  refine congrArg (V c main_v1) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias window holds its whole array at every point. -/
theorem blk2_eq (c : Dev nD) (t : Fin cfg0.N) : iblk0 V c 2 t = V c main_arg7 := by
  obtain ⟨e00, e01, e10, e11, e20, e30, e31, e40, e50, e51, e60, e70, e71, e80, e81, e90, e91⟩ := idx_facts t
  funext y
  show V c main_arg7 (((cfg0.win 2).blk t).view.emb y) = V c main_arg7 y
  refine congrArg (V c main_arg7) (funext fun a => Fin.ext ?_)
  match a with
  | ⟨0, _⟩ => show win0_2.index t (0 : Fin 1) * 128 + 1 * (y 0).val = (y 0).val; omega

/-- The second matrix window holds its whole array at every point. -/
theorem blk3_eq (c : Dev nD) (t : Fin cfg0.N) : iblk0 V c 3 t = V c main_v3 := by
  obtain ⟨e00, e01, e10, e11, e20, e30, e31, e40, e50, e51, e60, e70, e71, e80, e81, e90, e91⟩ := idx_facts t
  funext y
  show V c main_v3 (((cfg0.win 3).blk t).view.emb y) = V c main_v3 y
  refine congrArg (V c main_v3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias window holds its whole array at every point. -/
theorem blk4_eq (c : Dev nD) (t : Fin cfg0.N) : iblk0 V c 4 t = V c main_arg11 := by
  obtain ⟨e00, e01, e10, e11, e20, e30, e31, e40, e50, e51, e60, e70, e71, e80, e81, e90, e91⟩ := idx_facts t
  funext y
  show V c main_arg11 (((cfg0.win 4).blk t).view.emb y) = V c main_arg11 y
  refine congrArg (V c main_arg11) (funext fun a => Fin.ext ?_)
  match a with
  | ⟨0, _⟩ => show win0_4.index t (0 : Fin 1) * 128 + 1 * (y 0).val = (y 0).val; omega

/-- The third matrix window holds its whole array at every point. -/
theorem blk5_eq (c : Dev nD) (t : Fin cfg0.N) : iblk0 V c 5 t = V c main_v4 := by
  obtain ⟨e00, e01, e10, e11, e20, e30, e31, e40, e50, e51, e60, e70, e71, e80, e81, e90, e91⟩ := idx_facts t
  funext y
  show V c main_v4 (((cfg0.win 5).blk t).view.emb y) = V c main_v4 y
  refine congrArg (V c main_v4) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The third bias window holds its whole array at every point. -/
theorem blk6_eq (c : Dev nD) (t : Fin cfg0.N) : iblk0 V c 6 t = V c main_arg13 := by
  obtain ⟨e00, e01, e10, e11, e20, e30, e31, e40, e50, e51, e60, e70, e71, e80, e81, e90, e91⟩ := idx_facts t
  funext y
  show V c main_arg13 (((cfg0.win 6).blk t).view.emb y) = V c main_arg13 y
  refine congrArg (V c main_arg13) (funext fun a => Fin.ext ?_)
  match a with
  | ⟨0, _⟩ => show win0_6.index t (0 : Fin 1) * 128 + 1 * (y 0).val = (y 0).val; omega

/-! ## The first output array -/

/-- Where an entry of point `t`'s block of the first output sits in the array: row `2000·t + p`. -/
theorem emb7 (t : Fin cfg0.N) (p : Fin 2000) (q : Fin 128) :
    ((cfg0.win 7).blk t).view.emb (ix2 p q)
      = ix2 ⟨2000 * t.val + p.val, Nat.lt_of_lt_of_le (Nat.add_lt_add_left p.isLt _) (rows_le t)⟩ q := by
  obtain ⟨e00, e01, e10, e11, e20, e30, e31, e40, e50, e51, e60, e70, e71, e80, e81, e90, e91⟩ := idx_facts t
  funext a
  apply Fin.ext
  match a with
  | ⟨0, _⟩ => show win0_7.index t (0 : Fin 2) * 2000 + 1 * p.val = 2000 * t.val + p.val; omega
  | ⟨1, _⟩ => show win0_7.index t (1 : Fin 2) * 128 + 1 * q.val = q.val; omega

/-- WHAT POINT `t` WRITES BACK to the first output array: block `t` of `h·W + b`. -/
theorem flushed7_eq (c : Dev nD) (t : Fin cfg0.N) :
    (dat0 V c).flushed 7 t
      = ((cfg0.win 7).blk t).view.read (Elt Ideal) (affine (V c main_arg0) (V c main_v1) (V c main_arg7)) := by
  show (cfg0.win 7).cut (grid0.coords t) ((dat0 V c).after 7 t) = _
  rw [after0_7]
  unfold out0_7
  rw [View.canon_unit_zero zero2]
  simp only [View.ld_unit_zero (S := S2000x128) zero2, View.ld_unit_zero (S := S128x128) zero2,
    View.ld_unit_zero (S := S128) zero1]
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 2 t) (ix2 p q)
    = affine (V c main_arg0) (V c main_v1) (V c main_arg7) (((cfg0.win 7).blk t).view.emb (ix2 p q))
  refine (k0_pay2_apply (iblk0 V c 0 t) (iblk0 V c 1 t) (iblk0 V c 2 t) p q).trans ?_
  rw [blk0_eq V c t, blk1_eq V c t, blk2_eq V c t, emb7 t p q]
  exact affine_rowsFrom _ _ _ _ _ p q

/-- An index of the first output array is in point `t`'s block iff each coordinate is in the block's range. -/
theorem mem_blk7 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v5_0).slice (win0_7.rect t)).set ↔ _
  rw [View.set_slice_whole, Rect.mem_set_unit]
  exact Iff.rfl

/-- Row `r` of the first output array is in the block of point `r / 2000`. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  have hlt : (i 0).val / 2000 < cfg0.N := by rw [hN]; omega
  refine ⟨⟨(i 0).val / 2000, hlt⟩, flush0_7 _, ?_⟩
  obtain ⟨e00, e01, e10, e11, e20, e30, e31, e40, e50, e51, e60, e70, e71, e80, e81, e90, e91⟩ :=
    idx_facts ⟨(i 0).val / 2000, hlt⟩
  rw [mem_blk7]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    rw [e70]
    show (i 0).val / 2000 * 2000 ≤ (i 0).val ∧ (i 0).val < (i 0).val / 2000 * 2000 + 2000
    omega
  | ⟨1, _⟩ =>
    show win0_7.index ⟨(i 0).val / 2000, hlt⟩ (1 : Fin 2) * 128 ≤ (i 1).val
      ∧ (i 1).val < win0_7.index ⟨(i 0).val / 2000, hlt⟩ (1 : Fin 2) * 128 + 128
    rw [e71]
    omega

/-- THE FIRST OUTPUT ARRAY after the launch: `h·W + b` for the first matrix and bias. -/
theorem final7 (c : Dev nD) :
    (dat0 V c).arrAt 7 cfg0.N = affine (V c main_arg0) (V c main_v1) (V c main_arg7) :=
  (dat0 V c).arrAt_eq_of_cover 7 _ (fun t _ => flushed7_eq V c t) cover7

/-! ## The second output array -/

/-- Where an entry of point `t`'s block of the second output sits in the array: row `2000·t + p`. -/
theorem emb8 (t : Fin cfg0.N) (p : Fin 2000) (q : Fin 128) :
    ((cfg0.win 8).blk t).view.emb (ix2 p q)
      = ix2 ⟨2000 * t.val + p.val, Nat.lt_of_lt_of_le (Nat.add_lt_add_left p.isLt _) (rows_le t)⟩ q := by
  obtain ⟨e00, e01, e10, e11, e20, e30, e31, e40, e50, e51, e60, e70, e71, e80, e81, e90, e91⟩ := idx_facts t
  funext a
  apply Fin.ext
  match a with
  | ⟨0, _⟩ => show win0_8.index t (0 : Fin 2) * 2000 + 1 * p.val = 2000 * t.val + p.val; omega
  | ⟨1, _⟩ => show win0_8.index t (1 : Fin 2) * 128 + 1 * q.val = q.val; omega

/-- WHAT POINT `t` WRITES BACK to the second output array: block `t` of `h·W + b`. -/
theorem flushed8_eq (c : Dev nD) (t : Fin cfg0.N) :
    (dat0 V c).flushed 8 t
      = ((cfg0.win 8).blk t).view.read (Elt Ideal) (affine (V c main_arg0) (V c main_v3) (V c main_arg11)) := by
  show (cfg0.win 8).cut (grid0.coords t) ((dat0 V c).after 8 t) = _
  rw [after0_8]
  unfold out0_8
  rw [View.canon_unit_zero zero2]
  simp only [View.ld_unit_zero (S := S2000x128) zero2, View.ld_unit_zero (S := S128x128) zero2,
    View.ld_unit_zero (S := S128) zero1]
  funext j
  obtain ⟨p, q, rfl⟩ : ∃ (p : Fin 2000) (q : Fin 128), j = ix2 p q := ⟨j 0, j 1, eq_ix2 j⟩
  show k0_pay3 (F := Ideal) (iblk0 V c 0 t) (iblk0 V c 3 t) (iblk0 V c 4 t) (ix2 p q)
    = affine (V c main_arg0) (V c main_v3) (V c main_arg11) (((cfg0.win 8).blk t).view.emb (ix2 p q))
  refine (k0_pay3_apply (iblk0 V c 0 t) (iblk0 V c 3 t) (iblk0 V c 4 t) p q).trans ?_
  rw [blk0_eq V c t, blk3_eq V c t, blk4_eq V c t, emb8 t p q]
  exact affine_rowsFrom _ _ _ _ _ p q

/-- An index of the second output array is in point `t`'s block iff each coordinate is in the block's range. -/
theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v5_1).slice (win0_8.rect t)).set ↔ _
  rw [View.set_slice_whole, Rect.mem_set_unit]
  exact Iff.rfl

/-- Row `r` of the second output array is in the block of point `r / 2000`. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  have hlt : (i 0).val / 2000 < cfg0.N := by rw [hN]; omega
  refine ⟨⟨(i 0).val / 2000, hlt⟩, flush0_8 _, ?_⟩
  obtain ⟨e00, e01, e10, e11, e20, e30, e31, e40, e50, e51, e60, e70, e71, e80, e81, e90, e91⟩ :=
    idx_facts ⟨(i 0).val / 2000, hlt⟩
  rw [mem_blk8]
  intro a
  match a with
  | ⟨0, _⟩ =>
    show win0_8.index ⟨(i 0).val / 2000, hlt⟩ (0 : Fin 2) * 2000 ≤ (i 0).val
      ∧ (i 0).val < win0_8.index ⟨(i 0).val / 2000, hlt⟩ (0 : Fin 2) * 2000 + 2000
    rw [e80]
    show (i 0).val / 2000 * 2000 ≤ (i 0).val ∧ (i 0).val < (i 0).val / 2000 * 2000 + 2000
    omega
  | ⟨1, _⟩ =>
    show win0_8.index ⟨(i 0).val / 2000, hlt⟩ (1 : Fin 2) * 128 ≤ (i 1).val
      ∧ (i 1).val < win0_8.index ⟨(i 0).val / 2000, hlt⟩ (1 : Fin 2) * 128 + 128
    rw [e81]
    omega

/-- THE SECOND OUTPUT ARRAY after the launch: `h·W + b` for the second matrix and bias. -/
theorem final8 (c : Dev nD) :
    (dat0 V c).arrAt 8 cfg0.N = affine (V c main_arg0) (V c main_v3) (V c main_arg11) :=
  (dat0 V c).arrAt_eq_of_cover 8 _ (fun t _ => flushed8_eq V c t) cover8

/-! ## The third output array -/

/-- Where an entry of point `t`'s block of the third output sits in the array: row `2000·t + p`. -/
theorem emb9 (t : Fin cfg0.N) (p : Fin 2000) (q : Fin 128) :
    ((cfg0.win 9).blk t).view.emb (ix2 p q)
      = ix2 ⟨2000 * t.val + p.val, Nat.lt_of_lt_of_le (Nat.add_lt_add_left p.isLt _) (rows_le t)⟩ q := by
  obtain ⟨e00, e01, e10, e11, e20, e30, e31, e40, e50, e51, e60, e70, e71, e80, e81, e90, e91⟩ := idx_facts t
  funext a
  apply Fin.ext
  match a with
  | ⟨0, _⟩ => show win0_9.index t (0 : Fin 2) * 2000 + 1 * p.val = 2000 * t.val + p.val; omega
  | ⟨1, _⟩ => show win0_9.index t (1 : Fin 2) * 128 + 1 * q.val = q.val; omega

/-- WHAT POINT `t` WRITES BACK to the third output array: block `t` of `h·W + b`. -/
theorem flushed9_eq (c : Dev nD) (t : Fin cfg0.N) :
    (dat0 V c).flushed 9 t
      = ((cfg0.win 9).blk t).view.read (Elt Ideal) (affine (V c main_arg0) (V c main_v4) (V c main_arg13)) := by
  show (cfg0.win 9).cut (grid0.coords t) ((dat0 V c).after 9 t) = _
  rw [after0_9]
  unfold out0_9
  rw [View.canon_unit_zero zero2]
  simp only [View.ld_unit_zero (S := S2000x128) zero2, View.ld_unit_zero (S := S128x128) zero2,
    View.ld_unit_zero (S := S128) zero1]
  funext j
  obtain ⟨p, q, rfl⟩ : ∃ (p : Fin 2000) (q : Fin 128), j = ix2 p q := ⟨j 0, j 1, eq_ix2 j⟩
  show k0_pay4 (F := Ideal) (iblk0 V c 0 t) (iblk0 V c 5 t) (iblk0 V c 6 t) (ix2 p q)
    = affine (V c main_arg0) (V c main_v4) (V c main_arg13) (((cfg0.win 9).blk t).view.emb (ix2 p q))
  refine (k0_pay4_apply (iblk0 V c 0 t) (iblk0 V c 5 t) (iblk0 V c 6 t) p q).trans ?_
  rw [blk0_eq V c t, blk5_eq V c t, blk6_eq V c t, emb9 t p q]
  exact affine_rowsFrom _ _ _ _ _ p q

/-- An index of the third output array is in point `t`'s block iff each coordinate is in the block's range. -/
theorem mem_blk9 (t : Fin cfg0.N) (i : S50000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v5_2).slice (win0_9.rect t)).set ↔ _
  rw [View.set_slice_whole, Rect.mem_set_unit]
  exact Iff.rfl

/-- Row `r` of the third output array is in the block of point `r / 2000`. -/
theorem cover9 (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 25 := N_0
  have hlt : (i 0).val / 2000 < cfg0.N := by rw [hN]; omega
  refine ⟨⟨(i 0).val / 2000, hlt⟩, flush0_9 _, ?_⟩
  obtain ⟨e00, e01, e10, e11, e20, e30, e31, e40, e50, e51, e60, e70, e71, e80, e81, e90, e91⟩ :=
    idx_facts ⟨(i 0).val / 2000, hlt⟩
  rw [mem_blk9]
  intro a
  match a with
  | ⟨0, _⟩ =>
    show win0_9.index ⟨(i 0).val / 2000, hlt⟩ (0 : Fin 2) * 2000 ≤ (i 0).val
      ∧ (i 0).val < win0_9.index ⟨(i 0).val / 2000, hlt⟩ (0 : Fin 2) * 2000 + 2000
    rw [e90]
    show (i 0).val / 2000 * 2000 ≤ (i 0).val ∧ (i 0).val < (i 0).val / 2000 * 2000 + 2000
    omega
  | ⟨1, _⟩ =>
    show win0_9.index ⟨(i 0).val / 2000, hlt⟩ (1 : Fin 2) * 128 ≤ (i 1).val
      ∧ (i 1).val < win0_9.index ⟨(i 0).val / 2000, hlt⟩ (1 : Fin 2) * 128 + 128
    rw [e91]
    omega

/-- THE THIRD OUTPUT ARRAY after the launch: `h·W + b` for the third matrix and bias. -/
theorem final9 (c : Dev nD) :
    (dat0 V c).arrAt 9 cfg0.N = affine (V c main_arg0) (V c main_v4) (V c main_arg13) :=
  (dat0 V c).arrAt_eq_of_cover 9 _ (fun t _ => flushed9_eq V c t) cover9

end Cert.KernelIdeal.NodeProj

end
-- ==== Proof.Gate.lean ====
/-
  The edge gate and the node update, as whole-array functions of their inputs, for any number of rows.

  With `a = d + g + (e·Wc + bc)` (two gathered projections plus the edge projection), the gate is `σ(a)`, the message
  `s·σ(a)` for a third gathered projection `s`, and the new edge feature `e + a·σ(a)`. With
  `x = (h·Wa + ba) + u/(v + ε)` for two scatter sums `u`, `v`, the new node feature is `h + x·σ(x)`. Every one of these
  is computed entry by entry from the same row of its row inputs, so a block of consecutive rows of the result is the
  same function of the blocks.
-/
import proofs.«151684_j46102178955281_2_alg».proof.Proof.Rows

noncomputable section

namespace Cert.Rows

open Idealize.ShloMosaic Idealize.ShloMosaic.ValueIdx

variable {n : Nat}

/-- The gate's argument `d + g + (e·Wc + bc)`. -/
def preGate (e : FVec Ideal ⟨2, ![n, 128]⟩ .f32) (Wc : FVec Ideal ⟨2, ![128, 128]⟩ .f32) (bc : FVec Ideal ⟨1, ![128]⟩ .f32)
    (d g : FVec Ideal ⟨2, ![n, 128]⟩ .f32) : FVec Ideal ⟨2, ![n, 128]⟩ .f32 :=
  addf (addf d g) (affine e Wc bc)

/-- The gate `σ(a)`. -/
def gate (e : FVec Ideal ⟨2, ![n, 128]⟩ .f32) (Wc : FVec Ideal ⟨2, ![128, 128]⟩ .f32) (bc : FVec Ideal ⟨1, ![128]⟩ .f32)
    (d g : FVec Ideal ⟨2, ![n, 128]⟩ .f32) : FVec Ideal ⟨2, ![n, 128]⟩ .f32 :=
  logistic (preGate e Wc bc d g)

/-- The message `s·σ(a)`. -/
def message (e : FVec Ideal ⟨2, ![n, 128]⟩ .f32) (Wc : FVec Ideal ⟨2, ![128, 128]⟩ .f32) (bc : FVec Ideal ⟨1, ![128]⟩ .f32)
    (d g s : FVec Ideal ⟨2, ![n, 128]⟩ .f32) : FVec Ideal ⟨2, ![n, 128]⟩ .f32 :=
  mulf s (gate e Wc bc d g)

/-- The new edge feature `e + a·σ(a)`. -/
def edgeOut (e : FVec Ideal ⟨2, ![n, 128]⟩ .f32) (Wc : FVec Ideal ⟨2, ![128, 128]⟩ .f32) (bc : FVec Ideal ⟨1, ![128]⟩ .f32)
    (d g : FVec Ideal ⟨2, ![n, 128]⟩ .f32) : FVec Ideal ⟨2, ![n, 128]⟩ .f32 :=
  addf e (mulf (preGate e Wc bc d g) (gate e Wc bc d g))

/-- The node update's argument `(h·Wa + ba) + u/(v + ε)`, `ε` the float `0x358637BD`. -/
def preNode (h : FVec Ideal ⟨2, ![n, 128]⟩ .f32) (Wa : FVec Ideal ⟨2, ![128, 128]⟩ .f32) (ba : FVec Ideal ⟨1, ![128]⟩ .f32)
    (u v : FVec Ideal ⟨2, ![n, 128]⟩ .f32) : FVec Ideal ⟨2, ![n, 128]⟩ .f32 :=
  addf (affine h Wa ba) (divf u (addf v (broadcast ⟨2, ![n, 128]⟩ (Scalar.ofBits (F := Ideal) .f32 0x358637BD#32))))

/-- The new node feature `h + x·σ(x)`. -/
def nodeOut (h : FVec Ideal ⟨2, ![n, 128]⟩ .f32) (Wa : FVec Ideal ⟨2, ![128, 128]⟩ .f32) (ba : FVec Ideal ⟨1, ![128]⟩ .f32)
    (u v : FVec Ideal ⟨2, ![n, 128]⟩ .f32) : FVec Ideal ⟨2, ![n, 128]⟩ .f32 :=
  addf h (mulf (preNode h Wa ba u v) (logistic (preNode h Wa ba u v)))

variable {r : Nat} (o : Nat) (hr : o + r ≤ n)

/-- Row `p` of the gate of the rows from `o` is row `o + p` of the gate. -/
theorem gate_rowsFrom (e : FVec Ideal ⟨2, ![n, 128]⟩ .f32) (Wc : FVec Ideal ⟨2, ![128, 128]⟩ .f32)
    (bc : FVec Ideal ⟨1, ![128]⟩ .f32) (d g : FVec Ideal ⟨2, ![n, 128]⟩ .f32) (p : Fin r) (q : Fin 128) :
    gate (rowsFrom o hr e) Wc bc (rowsFrom o hr d) (rowsFrom o hr g) (ix2 p q)
      = gate e Wc bc d g (ix2 ⟨o + p.val, Nat.lt_of_lt_of_le (Nat.add_lt_add_left p.isLt o) hr⟩ q) := rfl

/-- Row `p` of the message of the rows from `o` is row `o + p` of the message. -/
theorem message_rowsFrom (e : FVec Ideal ⟨2, ![n, 128]⟩ .f32) (Wc : FVec Ideal ⟨2, ![128, 128]⟩ .f32)
    (bc : FVec Ideal ⟨1, ![128]⟩ .f32) (d g s : FVec Ideal ⟨2, ![n, 128]⟩ .f32) (p : Fin r) (q : Fin 128) :
    message (rowsFrom o hr e) Wc bc (rowsFrom o hr d) (rowsFrom o hr g) (rowsFrom o hr s) (ix2 p q)
      = message e Wc bc d g s (ix2 ⟨o + p.val, Nat.lt_of_lt_of_le (Nat.add_lt_add_left p.isLt o) hr⟩ q) := rfl

/-- Row `p` of the new edge feature of the rows from `o` is row `o + p` of the new edge feature. -/
theorem edgeOut_rowsFrom (e : FVec Ideal ⟨2, ![n, 128]⟩ .f32) (Wc : FVec Ideal ⟨2, ![128, 128]⟩ .f32)
    (bc : FVec Ideal ⟨1, ![128]⟩ .f32) (d g : FVec Ideal ⟨2, ![n, 128]⟩ .f32) (p : Fin r) (q : Fin 128) :
    edgeOut (rowsFrom o hr e) Wc bc (rowsFrom o hr d) (rowsFrom o hr g) (ix2 p q)
      = edgeOut e Wc bc d g (ix2 ⟨o + p.val, Nat.lt_of_lt_of_le (Nat.add_lt_add_left p.isLt o) hr⟩ q) := rfl

/-- Row `p` of the new node feature of the rows from `o` is row `o + p` of the new node feature. -/
theorem nodeOut_rowsFrom (h : FVec Ideal ⟨2, ![n, 128]⟩ .f32) (Wa : FVec Ideal ⟨2, ![128, 128]⟩ .f32)
    (ba : FVec Ideal ⟨1, ![128]⟩ .f32) (u v : FVec Ideal ⟨2, ![n, 128]⟩ .f32) (p : Fin r) (q : Fin 128) :
    nodeOut (rowsFrom o hr h) Wa ba (rowsFrom o hr u) (rowsFrom o hr v) (ix2 p q)
      = nodeOut h Wa ba u v (ix2 ⟨o + p.val, Nat.lt_of_lt_of_le (Nat.add_lt_add_left p.isLt o) hr⟩ q) := rfl

end Cert.Rows

end
-- ==== Proof.EdgeGate.lean ====
/-
  The edge gate: what the second launch leaves in each of its three output arrays.

  Every grid point `t` reads rows `4000·t … 4000·t + 3999` of the edge features `e` and of the three gathered
  projections, a whole `128 × 128` matrix and a whole bias row, and writes the same rows of the gate `σ(a)`, of the
  message `s·σ(a)` and of the new edge feature `e + a·σ(a)`, where `a = d + g + (e·Wc + bc)`. Each of these is
  computed entry by entry from the same row of the row inputs, and the 150 row blocks fill the 600000 rows, so each
  output array ends holding the whole-array function. The gate and the message are stored in a narrower float format,
  which is the identity on the extended reals.
-/
import proofs.«151684_j46102178955281_2_alg».proof.Proof.Gen.KernelIdeal.Frame
import proofs.«151684_j46102178955281_2_alg».proof.Proof.Gate

noncomputable section

namespace Cert.KernelIdeal.EdgeGate

open Idealize.ShloMosaic Idealize.ShloMosaic.TcCoe Idealize.ShloMosaic.ValueIdx Idealize.SL.Sem
open Cert.KernelIdeal Cert.KernelIdeal.Gen Cert.Rows
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The gate's argument computed on a block of 4000 rows. -/
theorem k1_pay1_eq (x0 : FVec Ideal S4000x128 .f32) (x1 : FVec Ideal S128x128 .f32) (x2 : FVec Ideal S128 .f32)
    (x3 x4 : FVec Ideal S4000x128 .f32) : k1_pay1 (F := Ideal) x0 x1 x2 x3 x4 = preGate x0 x1 x2 x3 x4 := by
  funext j
  obtain ⟨p, q, rfl⟩ : ∃ (p : Fin 4000) (q : Fin 128), j = ix2 p q := ⟨j 0, j 1, eq_ix2 j⟩
  show (shapeCast S4000x128 x3 shapeCasts_S4000x128_S4000x128 (ix2 p q)
      + shapeCast S4000x128 x4 shapeCasts_S4000x128_S4000x128 (ix2 p q)) + _
    = (x3 (ix2 p q) + x4 (ix2 p q)) + affine x0 x1 x2 (ix2 p q)
  rw [shapeCast_self x3, shapeCast_self x4]
  exact congrArg (x3 (ix2 p q) + x4 (ix2 p q) + ·) (matmul_bias_apply x0 x1 x2 _ _ _ _ _ p q)

/-- The stored gate of a block of 4000 rows. -/
theorem k1_pay3_eq (x0 : FVec Ideal S4000x128 .f32) (x1 : FVec Ideal S128x128 .f32) (x2 : FVec Ideal S128 .f32)
    (x3 x4 : FVec Ideal S4000x128 .f32) :
    k1_pay3 (F := Ideal) x0 x1 x2 x3 x4 = truncf .bf16 (gate x0 x1 x2 x3 x4) bitsLt_bf16_f32 := by
  unfold k1_pay3 k1_pay2 gate
  rw [k1_pay1_eq]

/-- The stored message of a block of 4000 rows. -/
theorem k1_pay4_eq (x0 : FVec Ideal S4000x128 .f32) (x1 : FVec Ideal S128x128 .f32) (x2 : FVec Ideal S128 .f32)
    (x3 x4 x5 : FVec Ideal S4000x128 .f32) :
    k1_pay4 (F := Ideal) x0 x1 x2 x3 x4 x5 = truncf .bf16 (message x0 x1 x2 x3 x4 x5) bitsLt_bf16_f32 := by
  unfold k1_pay4 k1_pay2 message gate
  rw [k1_pay1_eq, shapeCast_self x5]

/-- The new edge feature of a block of 4000 rows. -/
theorem k1_pay5_eq (x0 : FVec Ideal S4000x128 .f32) (x1 : FVec Ideal S128x128 .f32) (x2 : FVec Ideal S128 .f32)
    (x3 x4 : FVec Ideal S4000x128 .f32) : k1_pay5 (F := Ideal) x0 x1 x2 x3 x4 = edgeOut x0 x1 x2 x3 x4 := by
  unfold k1_pay5 edgeOut gate
  rw [k1_pay1_eq]

/-- Which block of its array each window holds at point `t`: the row windows hold block `t`, the matrix and bias
    windows their whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-- Block `t` of 4000 rows lies inside the 600000 rows. -/
theorem rows_le (t : Fin cfg1.N) : 4000 * t.val + 4000 ≤ 600000 := by
  have h := t.isLt
  have hN : cfg1.N = 150 := N_1
  omega

/-- The edge-feature window's block at point `t`: rows `4000·t …` of the edge features. -/
theorem blk0_eq (c : Dev nD) (t : Fin cfg1.N) :
    iblk1 V c 0 t = rowsFrom (4000 * t.val) (rows_le t) (V c main_arg1) := by
  obtain ⟨e00, e01, e10, e11, e20, e30, e31, e40, e41, e50, e51, e60, e61, e70, e71, e80, e81⟩ := idx_facts t
  funext y
  show V c main_arg1 (((cfg1.win 0).blk t).view.emb y) = V c main_arg1 _
  refine congrArg (V c main_arg1) (funext fun a => Fin.ext ?_)
  match a with
  | ⟨0, _⟩ => show win1_0.index t (0 : Fin 2) * 4000 + 1 * (y 0).val = 4000 * t.val + (y 0).val; omega
  | ⟨1, _⟩ => show win1_0.index t (1 : Fin 2) * 128 + 1 * (y 1).val = (y 1).val; omega

/-- The matrix window holds its whole array at every point. -/
theorem blk1_eq (c : Dev nD) (t : Fin cfg1.N) : iblk1 V c 1 t = V c main_v2 := by
  obtain ⟨e00, e01, e10, e11, e20, e30, e31, e40, e41, e50, e51, e60, e61, e70, e71, e80, e81⟩ := idx_facts t
  funext y
  show V c main_v2 (((cfg1.win 1).blk t).view.emb y) = V c main_v2 y
  refine congrArg (V c main_v2) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias window holds its whole array at every point. -/
theorem blk2_eq (c : Dev nD) (t : Fin cfg1.N) : iblk1 V c 2 t = V c main_arg9 := by
  obtain ⟨e00, e01, e10, e11, e20, e30, e31, e40, e41, e50, e51, e60, e61, e70, e71, e80, e81⟩ := idx_facts t
  funext y
  show V c main_arg9 (((cfg1.win 2).blk t).view.emb y) = V c main_arg9 y
  refine congrArg (V c main_arg9) (funext fun a => Fin.ext ?_)
  match a with
  | ⟨0, _⟩ => show win1_2.index t (0 : Fin 1) * 128 + 1 * (y 0).val = (y 0).val; omega

/-- The first gathered projection's block at point `t`: its rows `4000·t …`. -/
theorem blk3_eq (c : Dev nD) (t : Fin cfg1.N) :
    iblk1 V c 3 t = rowsFrom (4000 * t.val) (rows_le t) (V c main_v12) := by
  obtain ⟨e00, e01, e10, e11, e20, e30, e31, e40, e41, e50, e51, e60, e61, e70, e71, e80, e81⟩ := idx_facts t
  funext y
  show V c main_v12 (((cfg1.win 3).blk t).view.emb y) = V c main_v12 _
  refine congrArg (V c main_v12) (funext fun a => Fin.ext ?_)
  match a with
  | ⟨0, _⟩ => show win1_3.index t (0 : Fin 2) * 4000 + 1 * (y 0).val = 4000 * t.val + (y 0).val; omega
  | ⟨1, _⟩ => show win1_3.index t (1 : Fin 2) * 128 + 1 * (y 1).val = (y 1).val; omega

/-- The second gathered projection's block at point `t`: its rows `4000·t …`. -/
theorem blk4_eq (c : Dev nD) (t : Fin cfg1.N) :
    iblk1 V c 4 t = rowsFrom (4000 * t.val) (rows_le t) (V c main_v19) := by
  obtain ⟨e00, e01, e10, e11, e20, e30, e31, e40, e41, e50, e51, e60, e61, e70, e71, e80, e81⟩ := idx_facts t
  funext y
  show V c main_v19 (((cfg1.win 4).blk t).view.emb y) = V c main_v19 _
  refine congrArg (V c main_v19) (funext fun a => Fin.ext ?_)
  match a with
  | ⟨0, _⟩ => show win1_4.index t (0 : Fin 2) * 4000 + 1 * (y 0).val = 4000 * t.val + (y 0).val; omega
  | ⟨1, _⟩ => show win1_4.index t (1 : Fin 2) * 128 + 1 * (y 1).val = (y 1).val; omega

/-- The third gathered projection's block at point `t`: its rows `4000·t …`. -/
theorem blk5_eq (c : Dev nD) (t : Fin cfg1.N) :
    iblk1 V c 5 t = rowsFrom (4000 * t.val) (rows_le t) (V c main_v26) := by
  obtain ⟨e00, e01, e10, e11, e20, e30, e31, e40, e41, e50, e51, e60, e61, e70, e71, e80, e81⟩ := idx_facts t
  funext y
  show V c main_v26 (((cfg1.win 5).blk t).view.emb y) = V c main_v26 _
  refine congrArg (V c main_v26) (funext fun a => Fin.ext ?_)
  match a with
  | ⟨0, _⟩ => show win1_5.index t (0 : Fin 2) * 4000 + 1 * (y 0).val = 4000 * t.val + (y 0).val; omega
  | ⟨1, _⟩ => show win1_5.index t (1 : Fin 2) * 128 + 1 * (y 1).val = (y 1).val; omega

/-! ## The gate array -/

/-- Where an entry of point `t`'s block of the gate sits in the array: row `4000·t + p`. -/
theorem emb6 (t : Fin cfg1.N) (p : Fin 4000) (q : Fin 128) :
    ((cfg1.win 6).blk t).view.emb (ix2 p q)
      = ix2 ⟨4000 * t.val + p.val, Nat.lt_of_lt_of_le (Nat.add_lt_add_left p.isLt _) (rows_le t)⟩ q := by
  obtain ⟨e00, e01, e10, e11, e20, e30, e31, e40, e41, e50, e51, e60, e61, e70, e71, e80, e81⟩ := idx_facts t
  funext a
  apply Fin.ext
  match a with
  | ⟨0, _⟩ => show win1_6.index t (0 : Fin 2) * 4000 + 1 * p.val = 4000 * t.val + p.val; omega
  | ⟨1, _⟩ => show win1_6.index t (1 : Fin 2) * 128 + 1 * q.val = q.val; omega

/-- WHAT POINT `t` WRITES BACK to the gate array: block `t` of `σ(a)`. -/
theorem flushed6_eq (c : Dev nD) (t : Fin cfg1.N) :
    (dat1 V c).flushed 6 t
      = ((cfg1.win 6).blk t).view.read (Elt Ideal)
          (truncf .bf16 (gate (V c main_arg1) (V c main_v2) (V c main_arg9) (V c main_v12) (V c main_v19))
            bitsLt_bf16_f32) := by
  show (cfg1.win 6).cut (grid1.coords t) ((dat1 V c).after 6 t) = _
  rw [after1_6]
  unfold out1_6
  rw [View.canon_unit_zero zero2]
  simp only [View.ld_unit_zero (S := S4000x128) zero2, View.ld_unit_zero (S := S128x128) zero2,
    View.ld_unit_zero (S := S128) zero1]
  funext j
  obtain ⟨p, q, rfl⟩ : ∃ (p : Fin 4000) (q : Fin 128), j = ix2 p q := ⟨j 0, j 1, eq_ix2 j⟩
  show k1_pay3 (F := Ideal) (iblk1 V c 0 t) (iblk1 V c 1 t) (iblk1 V c 2 t) (iblk1 V c 3 t) (iblk1 V c 4 t) (ix2 p q)
    = gate (V c main_arg1) (V c main_v2) (V c main_arg9) (V c main_v12) (V c main_v19)
        (((cfg1.win 6).blk t).view.emb (ix2 p q))
  refine (congrFun (k1_pay3_eq (iblk1 V c 0 t) (iblk1 V c 1 t) (iblk1 V c 2 t) (iblk1 V c 3 t) (iblk1 V c 4 t))
    (ix2 p q)).trans ?_
  show gate (iblk1 V c 0 t) (iblk1 V c 1 t) (iblk1 V c 2 t) (iblk1 V c 3 t) (iblk1 V c 4 t) (ix2 p q) = _
  rw [blk0_eq V c t, blk1_eq V c t, blk2_eq V c t, blk3_eq V c t, blk4_eq V c t, emb6 t p q]
  exact gate_rowsFrom _ _ _ _ _ _ _ p q

/-- An index of the gate array is in point `t`'s block iff each coordinate is in the block's range. -/
theorem mem_blk6 (t : Fin cfg1.N) (i : S600000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v27_0).slice (win1_6.rect t)).set ↔ _
  rw [View.set_slice_whole, Rect.mem_set_unit]
  exact Iff.rfl

/-- Row `r` of the gate array is in the block of point `r / 4000`. -/
theorem cover6 (i : S600000x128.Idx) :
    ∃ t : Fin cfg1.N, (cfg1.win 6).flush t = true ∧ i ∈ ((cfg1.win 6).blk t).view.set := by
  have hi0 : (i 0).val < 600000 := (i 0).isLt
  have hi1 : (i 1).val < 128 := (i 1).isLt
  have hN : cfg1.N = 150 := N_1
  have hlt : (i 0).val / 4000 < cfg1.N := by rw [hN]; omega
  refine ⟨⟨(i 0).val / 4000, hlt⟩, flush1_6 _, ?_⟩
  obtain ⟨e00, e01, e10, e11, e20, e30, e31, e40, e41, e50, e51, e60, e61, e70, e71, e80, e81⟩ :=
    idx_facts ⟨(i 0).val / 4000, hlt⟩
  rw [mem_blk6]
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    rw [e60]
    show (i 0).val / 4000 * 4000 ≤ (i 0).val ∧ (i 0).val < (i 0).val / 4000 * 4000 + 4000
    omega
  | ⟨1, _⟩ =>
    show win1_6.index ⟨(i 0).val / 4000, hlt⟩ (1 : Fin 2) * 128 ≤ (i 1).val
      ∧ (i 1).val < win1_6.index ⟨(i 0).val / 4000, hlt⟩ (1 : Fin 2) * 128 + 128
    rw [e61]
    omega

/-- THE GATE ARRAY after the launch: `σ(a)`, stored in the narrower format. -/
theorem final6 (c : Dev nD) :
    (dat1 V c).arrAt 6 cfg1.N
      = truncf .bf16 (gate (V c main_arg1) (V c main_v2) (V c main_arg9) (V c main_v12) (V c main_v19))
          bitsLt_bf16_f32 :=
  (dat1 V c).arrAt_eq_of_cover 6 _ (fun t _ => flushed6_eq V c t) cover6

/-! ## The message array -/

/-- Where an entry of point `t`'s block of the message sits in the array: row `4000·t + p`. -/
theorem emb7 (t : Fin cfg1.N) (p : Fin 4000) (q : Fin 128) :
    ((cfg1.win 7).blk t).view.emb (ix2 p q)
      = ix2 ⟨4000 * t.val + p.val, Nat.lt_of_lt_of_le (Nat.add_lt_add_left p.isLt _) (rows_le t)⟩ q := by
  obtain ⟨e00, e01, e10, e11, e20, e30, e31, e40, e41, e50, e51, e60, e61, e70, e71, e80, e81⟩ := idx_facts t
  funext a
  apply Fin.ext
  match a with
  | ⟨0, _⟩ => show win1_7.index t (0 : Fin 2) * 4000 + 1 * p.val = 4000 * t.val + p.val; omega
  | ⟨1, _⟩ => show win1_7.index t (1 : Fin 2) * 128 + 1 * q.val = q.val; omega

/-- WHAT POINT `t` WRITES BACK to the message array: block `t` of `s·σ(a)`. -/
theorem flushed7_eq (c : Dev nD) (t : Fin cfg1.N) :
    (dat1 V c).flushed 7 t
      = ((cfg1.win 7).blk t).view.read (Elt Ideal)
          (truncf .bf16 (message (V c main_arg1) (V c main_v2) (V c main_arg9) (V c main_v12) (V c main_v19)
            (V c main_v26)) bitsLt_bf16_f32) := by
  show (cfg1.win 7).cut (grid1.coords t) ((dat1 V c).after 7 t) = _
  rw [after1_7]
  unfold out1_7
  rw [View.canon_unit_zero zero2]
  simp only [View.ld_unit_zero (S := S4000x128) zero2, View.ld_unit_zero (S := S128x128) zero2,
    View.ld_unit_zero (S := S128) zero1]
  funext j
  obtain ⟨p, q, rfl⟩ : ∃ (p : Fin 4000) (q : Fin 128), j = ix2 p q := ⟨j 0, j 1, eq_ix2 j⟩
  show k1_pay4 (F := Ideal) (iblk1 V c 0 t) (iblk1 V c 1 t) (iblk1 V c 2 t) (iblk1 V c 3 t) (iblk1 V c 4 t)
      (iblk1 V c 5 t) (ix2 p q)
    = message (V c main_arg1) (V c main_v2) (V c main_arg9) (V c main_v12) (V c main_v19) (V c main_v26)
        (((cfg1.win 7).blk t).view.emb (ix2 p q))
  refine (congrFun (k1_pay4_eq (iblk1 V c 0 t) (iblk1 V c 1 t) (iblk1 V c 2 t) (iblk1 V c 3 t) (iblk1 V c 4 t)
    (iblk1 V c 5 t)) (ix2 p q)).trans ?_
  show message (iblk1 V c 0 t) (iblk1 V c 1 t) (iblk1 V c 2 t) (iblk1 V c 3 t) (iblk1 V c 4 t) (iblk1 V c 5 t)
    (ix2 p q) = _
  rw [blk0_eq V c t, blk1_eq V c t, blk2_eq V c t, blk3_eq V c t, blk4_eq V c t, blk5_eq V c t, emb7 t p q]
  exact message_rowsFrom _ _ _ _ _ _ _ _ p q

/-- An index of the message array is in point `t`'s block iff each coordinate is in the block's range. -/
theorem mem_blk7 (t : Fin cfg1.N) (i : S600000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v27_1).slice (win1_7.rect t)).set ↔ _
  rw [View.set_slice_whole, Rect.mem_set_unit]
  exact Iff.rfl

/-- Row `r` of the message array is in the block of point `r / 4000`. -/
theorem cover7 (i : S600000x128.Idx) :
    ∃ t : Fin cfg1.N, (cfg1.win 7).flush t = true ∧ i ∈ ((cfg1.win 7).blk t).view.set := by
  have hi0 : (i 0).val < 600000 := (i 0).isLt
  have hi1 : (i 1).val < 128 := (i 1).isLt
  have hN : cfg1.N = 150 := N_1
  have hlt : (i 0).val / 4000 < cfg1.N := by rw [hN]; omega
  refine ⟨⟨(i 0).val / 4000, hlt⟩, flush1_7 _, ?_⟩
  obtain ⟨e00, e01, e10, e11, e20, e30, e31, e40, e41, e50, e51, e60, e61, e70, e71, e80, e81⟩ :=
    idx_facts ⟨(i 0).val / 4000, hlt⟩
  rw [mem_blk7]
  intro a
  match a with
  | ⟨0, _⟩ =>
    show win1_7.index ⟨(i 0).val / 4000, hlt⟩ (0 : Fin 2) * 4000 ≤ (i 0).val
      ∧ (i 0).val < win1_7.index ⟨(i 0).val / 4000, hlt⟩ (0 : Fin 2) * 4000 + 4000
    rw [e70]
    show (i 0).val / 4000 * 4000 ≤ (i 0).val ∧ (i 0).val < (i 0).val / 4000 * 4000 + 4000
    omega
  | ⟨1, _⟩ =>
    show win1_7.index ⟨(i 0).val / 4000, hlt⟩ (1 : Fin 2) * 128 ≤ (i 1).val
      ∧ (i 1).val < win1_7.index ⟨(i 0).val / 4000, hlt⟩ (1 : Fin 2) * 128 + 128
    rw [e71]
    omega

/-- THE MESSAGE ARRAY after the launch: `s·σ(a)`, stored in the narrower format. -/
theorem final7 (c : Dev nD) :
    (dat1 V c).arrAt 7 cfg1.N
      = truncf .bf16 (message (V c main_arg1) (V c main_v2) (V c main_arg9) (V c main_v12) (V c main_v19)
          (V c main_v26)) bitsLt_bf16_f32 :=
  (dat1 V c).arrAt_eq_of_cover 7 _ (fun t _ => flushed7_eq V c t) cover7

/-! ## The new edge features -/

/-- Where an entry of point `t`'s block of the new edge features sits in the array: row `4000·t + p`. -/
theorem emb8 (t : Fin cfg1.N) (p : Fin 4000) (q : Fin 128) :
    ((cfg1.win 8).blk t).view.emb (ix2 p q)
      = ix2 ⟨4000 * t.val + p.val, Nat.lt_of_lt_of_le (Nat.add_lt_add_left p.isLt _) (rows_le t)⟩ q := by
  obtain ⟨e00, e01, e10, e11, e20, e30, e31, e40, e41, e50, e51, e60, e61, e70, e71, e80, e81⟩ := idx_facts t
  funext a
  apply Fin.ext
  match a with
  | ⟨0, _⟩ => show win1_8.index t (0 : Fin 2) * 4000 + 1 * p.val = 4000 * t.val + p.val; omega
  | ⟨1, _⟩ => show win1_8.index t (1 : Fin 2) * 128 + 1 * q.val = q.val; omega

/-- WHAT POINT `t` WRITES BACK to the new edge features: block `t` of `e + a·σ(a)`. -/
theorem flushed8_eq (c : Dev nD) (t : Fin cfg1.N) :
    (dat1 V c).flushed 8 t
      = ((cfg1.win 8).blk t).view.read (Elt Ideal)
          (edgeOut (V c main_arg1) (V c main_v2) (V c main_arg9) (V c main_v12) (V c main_v19)) := by
  show (cfg1.win 8).cut (grid1.coords t) ((dat1 V c).after 8 t) = _
  rw [after1_8]
  unfold out1_8
  rw [View.canon_unit_zero zero2]
  simp only [View.ld_unit_zero (S := S4000x128) zero2, View.ld_unit_zero (S := S128x128) zero2,
    View.ld_unit_zero (S := S128) zero1]
  funext j
  obtain ⟨p, q, rfl⟩ : ∃ (p : Fin 4000) (q : Fin 128), j = ix2 p q := ⟨j 0, j 1, eq_ix2 j⟩
  show k1_pay5 (F := Ideal) (iblk1 V c 0 t) (iblk1 V c 1 t) (iblk1 V c 2 t) (iblk1 V c 3 t) (iblk1 V c 4 t) (ix2 p q)
    = edgeOut (V c main_arg1) (V c main_v2) (V c main_arg9) (V c main_v12) (V c main_v19)
        (((cfg1.win 8).blk t).view.emb (ix2 p q))
  refine (congrFun (k1_pay5_eq (iblk1 V c 0 t) (iblk1 V c 1 t) (iblk1 V c 2 t) (iblk1 V c 3 t) (iblk1 V c 4 t))
    (ix2 p q)).trans ?_
  rw [blk0_eq V c t, blk1_eq V c t, blk2_eq V c t, blk3_eq V c t, blk4_eq V c t, emb8 t p q]
  exact edgeOut_rowsFrom _ _ _ _ _ _ _ p q

/-- An index of the new edge features is in point `t`'s block iff each coordinate is in the block's range. -/
theorem mem_blk8 (t : Fin cfg1.N) (i : S600000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v27_2).slice (win1_8.rect t)).set ↔ _
  rw [View.set_slice_whole, Rect.mem_set_unit]
  exact Iff.rfl

/-- Row `r` of the new edge features is in the block of point `r / 4000`. -/
theorem cover8 (i : S600000x128.Idx) :
    ∃ t : Fin cfg1.N, (cfg1.win 8).flush t = true ∧ i ∈ ((cfg1.win 8).blk t).view.set := by
  have hi0 : (i 0).val < 600000 := (i 0).isLt
  have hi1 : (i 1).val < 128 := (i 1).isLt
  have hN : cfg1.N = 150 := N_1
  have hlt : (i 0).val / 4000 < cfg1.N := by rw [hN]; omega
  refine ⟨⟨(i 0).val / 4000, hlt⟩, flush1_8 _, ?_⟩
  obtain ⟨e00, e01, e10, e11, e20, e30, e31, e40, e41, e50, e51, e60, e61, e70, e71, e80, e81⟩ :=
    idx_facts ⟨(i 0).val / 4000, hlt⟩
  rw [mem_blk8]
  intro a
  match a with
  | ⟨0, _⟩ =>
    show win1_8.index ⟨(i 0).val / 4000, hlt⟩ (0 : Fin 2) * 4000 ≤ (i 0).val
      ∧ (i 0).val < win1_8.index ⟨(i 0).val / 4000, hlt⟩ (0 : Fin 2) * 4000 + 4000
    rw [e80]
    show (i 0).val / 4000 * 4000 ≤ (i 0).val ∧ (i 0).val < (i 0).val / 4000 * 4000 + 4000
    omega
  | ⟨1, _⟩ =>
    show win1_8.index ⟨(i 0).val / 4000, hlt⟩ (1 : Fin 2) * 128 ≤ (i 1).val
      ∧ (i 1).val < win1_8.index ⟨(i 0).val / 4000, hlt⟩ (1 : Fin 2) * 128 + 128
    rw [e81]
    omega

/-- THE NEW EDGE FEATURES after the launch: `e + a·σ(a)`. -/
theorem final8 (c : Dev nD) :
    (dat1 V c).arrAt 8 cfg1.N
      = edgeOut (V c main_arg1) (V c main_v2) (V c main_arg9) (V c main_v12) (V c main_v19) :=
  (dat1 V c).arrAt_eq_of_cover 8 _ (fun t _ => flushed8_eq V c t) cover8

end Cert.KernelIdeal.EdgeGate

end
-- ==== Proof.NodeOut.lean ====
/-
  The node update: what the third launch leaves in its output array.

  Every grid point `t` reads rows `2000·t … 2000·t + 1999` of the node features `h` and of the two scatter sums `u`,
  `v`, a whole `128 × 128` matrix and a whole bias row, and writes the same rows of `h + x·σ(x)`, where
  `x = (h·Wa + ba) + u/(v + ε)`. The result is computed entry by entry from the same row of the row inputs, and the 25
  row blocks fill the 50000 rows, so the output array ends holding the whole-array function.
-/
import proofs.«151684_j46102178955281_2_alg».proof.Proof.Gen.KernelIdeal.Frame
import proofs.«151684_j46102178955281_2_alg».proof.Proof.Gate

noncomputable section

namespace Cert.KernelIdeal.NodeOut

open Idealize.ShloMosaic Idealize.ShloMosaic.TcCoe Idealize.ShloMosaic.ValueIdx Idealize.SL.Sem
open Cert.KernelIdeal Cert.KernelIdeal.Gen Cert.Rows
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The new node features of a block of 2000 rows. -/
theorem k2_pay1_eq (x0 : FVec Ideal S2000x128 .f32) (x1 : FVec Ideal S128x128 .f32) (x2 : FVec Ideal S128 .f32)
    (x3 x4 : FVec Ideal S2000x128 .f32) : k2_pay1 (F := Ideal) x0 x1 x2 x3 x4 = nodeOut x0 x1 x2 x3 x4 := by
  have hM : addf (matmul (F := Ideal) dot_S2000x128_S128x128_S2000x128_1_0_0_1_n_n none (truncf .bf16 x0 bitsLt_bf16_f32)
        (truncf .bf16 (shapeCast S128x128 x1 shapeCasts_S128x128_S128x128) bitsLt_bf16_f32)
        (constant (F := Ideal) S2000x128 .f32 0x00000000#32))
      (broadcastTo S2000x128 (shapeCast S1x128 (shapeCast S1x128 x2 shapeCasts_S128_S1x128) shapeCasts_S1x128_S1x128)
        broadcasts_S1x128_S2000x128) = affine x0 x1 x2 :=
    funext fun j => by
      obtain ⟨p, q, rfl⟩ : ∃ (p : Fin 2000) (q : Fin 128), j = ix2 p q := ⟨j 0, j 1, eq_ix2 j⟩
      exact matmul_bias_apply x0 x1 x2 _ _ _ _ _ p q
  unfold k2_pay1 nodeOut preNode
  dsimp only
  rw [hM, shapeCast_self x3, shapeCast_self x4]

/-- Which block of its array each window holds at point `t`: the row windows hold block `t`, the matrix and bias
    windows their whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Block `t` of 2000 rows lies inside the 50000 rows. -/
theorem rows_le (t : Fin cfg2.N) : 2000 * t.val + 2000 ≤ 50000 := by
  have h := t.isLt
  have hN : cfg2.N = 25 := N_2
  omega

/-- The node-feature window's block at point `t`: rows `2000·t …` of the node features. -/
theorem blk0_eq (c : Dev nD) (t : Fin cfg2.N) :
    iblk2 V c 0 t = rowsFrom (2000 * t.val) (rows_le t) (V c main_arg0) := by
  obtain ⟨e00, e01, e10, e11, e20, e30, e31, e40, e41, e50, e51⟩ := idx_facts t
  funext y
  show V c main_arg0 (((cfg2.win 0).blk t).view.emb y) = V c main_arg0 _
  refine congrArg (V c main_arg0) (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 128 + 1 * (y 1).val = (y 1).val; omega

/-- The matrix window holds its whole array at every point. -/
theorem blk1_eq (c : Dev nD) (t : Fin cfg2.N) : iblk2 V c 1 t = V c main_v0 := by
  obtain ⟨e00, e01, e10, e11, e20, e30, e31, e40, e41, e50, e51⟩ := idx_facts t
  funext y
  show V c main_v0 (((cfg2.win 1).blk t).view.emb y) = V c main_v0 y
  refine congrArg (V c main_v0) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias window holds its whole array at every point. -/
theorem blk2_eq (c : Dev nD) (t : Fin cfg2.N) : iblk2 V c 2 t = V c main_arg5 := by
  obtain ⟨e00, e01, e10, e11, e20, e30, e31, e40, e41, e50, e51⟩ := idx_facts t
  funext y
  show V c main_arg5 (((cfg2.win 2).blk t).view.emb y) = V c main_arg5 y
  refine congrArg (V c main_arg5) (funext fun a => Fin.ext ?_)
  match a with
  | ⟨0, _⟩ => show win2_2.index t (0 : Fin 1) * 128 + 1 * (y 0).val = (y 0).val; omega

/-- The first scatter sum's block at point `t`: its rows `2000·t …`. -/
theorem blk3_eq (c : Dev nD) (t : Fin cfg2.N) :
    iblk2 V c 3 t = rowsFrom (2000 * t.val) (rows_le t) (V c main_v31) := by
  obtain ⟨e00, e01, e10, e11, e20, e30, e31, e40, e41, e50, e51⟩ := idx_facts t
  funext y
  show V c main_v31 (((cfg2.win 3).blk t).view.emb y) = V c main_v31 _
  refine congrArg (V c main_v31) (funext fun a => Fin.ext ?_)
  match a with
  | ⟨0, _⟩ => show win2_3.index t (0 : Fin 2) * 2000 + 1 * (y 0).val = 2000 * t.val + (y 0).val; omega
  | ⟨1, _⟩ => show win2_3.index t (1 : Fin 2) * 128 + 1 * (y 1).val = (y 1).val; omega

/-- The second scatter sum's block at point `t`: its rows `2000·t …`. -/
theorem blk4_eq (c : Dev nD) (t : Fin cfg2.N) :
    iblk2 V c 4 t = rowsFrom (2000 * t.val) (rows_le t) (V c main_v35) := by
  obtain ⟨e00, e01, e10, e11, e20, e30, e31, e40, e41, e50, e51⟩ := idx_facts t
  funext y
  show V c main_v35 (((cfg2.win 4).blk t).view.emb y) = V c main_v35 _
  refine congrArg (V c main_v35) (funext fun a => Fin.ext ?_)
  match a with
  | ⟨0, _⟩ => show win2_4.index t (0 : Fin 2) * 2000 + 1 * (y 0).val = 2000 * t.val + (y 0).val; omega
  | ⟨1, _⟩ => show win2_4.index t (1 : Fin 2) * 128 + 1 * (y 1).val = (y 1).val; omega

/-- Where an entry of point `t`'s block of the output sits in the array: row `2000·t + p`. -/
theorem emb5 (t : Fin cfg2.N) (p : Fin 2000) (q : Fin 128) :
    ((cfg2.win 5).blk t).view.emb (ix2 p q)
      = ix2 ⟨2000 * t.val + p.val, Nat.lt_of_lt_of_le (Nat.add_lt_add_left p.isLt _) (rows_le t)⟩ q := by
  obtain ⟨e00, e01, e10, e11, e20, e30, e31, e40, e41, e50, e51⟩ := idx_facts t
  funext a
  apply Fin.ext
  match a with
  | ⟨0, _⟩ => show win2_5.index t (0 : Fin 2) * 2000 + 1 * p.val = 2000 * t.val + p.val; omega
  | ⟨1, _⟩ => show win2_5.index t (1 : Fin 2) * 128 + 1 * q.val = q.val; omega

/-- WHAT POINT `t` WRITES BACK: block `t` of `h + x·σ(x)`. -/
theorem flushed5_eq (c : Dev nD) (t : Fin cfg2.N) :
    (dat2 V c).flushed 5 t
      = ((cfg2.win 5).blk t).view.read (Elt Ideal)
          (nodeOut (V c main_arg0) (V c main_v0) (V c main_arg5) (V c main_v31) (V c main_v35)) := by
  show (cfg2.win 5).cut (grid2.coords t) ((dat2 V c).after 5 t) = _
  rw [after2_5]
  unfold out2_5
  rw [View.canon_unit_zero zero2]
  simp only [View.ld_unit_zero (S := S2000x128) zero2, View.ld_unit_zero (S := S128x128) zero2,
    View.ld_unit_zero (S := S128) zero1]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = nodeOut (V c main_arg0) (V c main_v0) (V c main_arg5) (V c main_v31) (V c main_v35)
        (((cfg2.win 5).blk t).view.emb (ix2 p q))
  refine (congrFun (k2_pay1_eq (iblk2 V c 0 t) (iblk2 V c 1 t) (iblk2 V c 2 t) (iblk2 V c 3 t) (iblk2 V c 4 t))
    (ix2 p q)).trans ?_
  rw [blk0_eq V c t, blk1_eq V c t, blk2_eq V c t, blk3_eq V c t, blk4_eq V c t, emb5 t p q]
  exact nodeOut_rowsFrom _ _ _ _ _ _ _ p q

/-- An index of the output array is in point `t`'s block iff each coordinate is in the block's range. -/
theorem mem_blk5 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v36).slice (win2_5.rect t)).set ↔ _
  rw [View.set_slice_whole, Rect.mem_set_unit]
  exact Iff.rfl

/-- Row `r` of the output array is in the block of point `r / 2000`. -/
theorem cover5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  have hlt : (i 0).val / 2000 < cfg2.N := by rw [hN]; omega
  refine ⟨⟨(i 0).val / 2000, hlt⟩, flush2_5 _, ?_⟩
  obtain ⟨e00, e01, e10, e11, e20, e30, e31, e40, e41, e50, e51⟩ := idx_facts ⟨(i 0).val / 2000, hlt⟩
  rw [mem_blk5]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    rw [e51]
    omega

/-- THE OUTPUT ARRAY after the launch: `h + x·σ(x)`. -/
theorem final5 (c : Dev nD) :
    (dat2 V c).arrAt 5 cfg2.N
      = nodeOut (V c main_arg0) (V c main_v0) (V c main_arg5) (V c main_v31) (V c main_v35) :=
  (dat2 V c).arrAt_eq_of_cover 5 _ (fun t _ => flushed5_eq V c t) cover5

end Cert.KernelIdeal.NodeOut

end
-- ==== Proof.KernelValue.lean ====
/-
  The kernel program's two results as functions of its arguments.

  The buffer contents at each segment boundary are read off one buffer at a time: a host stretch gives each buffer it
  writes its operation's value of the operands and leaves every other buffer alone; a launch gives each output array
  its whole-array function of the launch's input arrays and leaves every other buffer alone. The edge endpoints are
  made row indices by the host (a negative entry counted from the end; a column of one-entry indices), rows are
  gathered by them and scattered-and-added by the raw second endpoint; these host functions are carried as they are.
-/
import proofs.«151684_j46102178955281_2_alg».proof.Proof.NodeProj
import proofs.«151684_j46102178955281_2_alg».proof.Proof.EdgeGate
import proofs.«151684_j46102178955281_2_alg».proof.Proof.NodeOut
import Idealize.ShloMosaic.Lib.StableHlo.Run

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen Cert.Rows

/-- A matrix transposed, as the host does it. -/
def tr (W : (⟨S128x128, .f32⟩ : BufTy).Contents (Elt Ideal)) : (⟨S128x128, .f32⟩ : BufTy).Contents (Elt Ideal) :=
  transpose S128x128 [1, 0] W transposes_S128x128_S128x128_1_0

/-- An edge endpoint made a row index: a negative entry counted from the end, then a column of one-entry indices. -/
def rowIndex (x : (⟨S600000, .i32⟩ : BufTy).Contents (Elt Ideal)) : (⟨S600000x1, .i32⟩ : BufTy).Contents (Elt Ideal) :=
  broadcastInDim S600000x1 ![0] bcast_S600000_S600000x1_0
    (select (cmpi .slt x (broadcastInDim S600000 ![] bcast_S_S600000 (constantI S_ 32 0#32)))
      (addi x (broadcastInDim S600000 ![] bcast_S_S600000 (constantI S_ 32 50000#32))) x)

/-- An edge endpoint as a column of one-entry indices, unchanged. -/
def colIndex (x : (⟨S600000, .i32⟩ : BufTy).Contents (Elt Ideal)) : (⟨S600000x1, .i32⟩ : BufTy).Contents (Elt Ideal) :=
  broadcastInDim S600000x1 ![0] bcast_S600000_S600000x1_0 x

/-- Rows of a node array gathered by a column of row indices. -/
def gatherRows (X : (⟨S50000x128, .f32⟩ : BufTy).Contents (Elt Ideal))
    (I : (⟨S600000x1, .i32⟩ : BufTy).Contents (Elt Ideal)) : (⟨S600000x128, .f32⟩ : BufTy).Contents (Elt Ideal) :=
  Host.gather gather_S50000x128_S600000x1_S600000x128_1_0_n_n_0_1_1128 X I

/-- Edge rows added into the node rows a column of row indices names, from the zero array. -/
def scatterRows (I : (⟨S600000x1, .i32⟩ : BufTy).Contents (Elt Ideal))
    (U : (⟨S600000x128, .f32⟩ : BufTy).Contents (Elt Ideal)) : (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32)) I U

variable (m : (ℓ : Loc nD τ sig) → Buf (Elt Ideal) ℓ) (ρ : Dev nD → PrngReg) (c : Dev nD)

/-! ## After the first host stretch: the five transposed matrices, everything else as launched -/

theorem W1_arg0 : W1 m ρ c (Proc.devRef .tc main_arg0) = W0 m ρ c (Proc.devRef .tc main_arg0) := by
  show StableHlo.after hostOps0 (W0 m ρ c) (Proc.devRef .tc main_arg0) = _
  after_results
theorem W1_arg1 : W1 m ρ c (Proc.devRef .tc main_arg1) = W0 m ρ c (Proc.devRef .tc main_arg1) := by
  show StableHlo.after hostOps0 (W0 m ρ c) (Proc.devRef .tc main_arg1) = _
  after_results
theorem W1_arg2 : W1 m ρ c (Proc.devRef .tc main_arg2) = W0 m ρ c (Proc.devRef .tc main_arg2) := by
  show StableHlo.after hostOps0 (W0 m ρ c) (Proc.devRef .tc main_arg2) = _
  after_results
theorem W1_arg3 : W1 m ρ c (Proc.devRef .tc main_arg3) = W0 m ρ c (Proc.devRef .tc main_arg3) := by
  show StableHlo.after hostOps0 (W0 m ρ c) (Proc.devRef .tc main_arg3) = _
  after_results
theorem W1_arg5 : W1 m ρ c (Proc.devRef .tc main_arg5) = W0 m ρ c (Proc.devRef .tc main_arg5) := by
  show StableHlo.after hostOps0 (W0 m ρ c) (Proc.devRef .tc main_arg5) = _
  after_results
theorem W1_arg7 : W1 m ρ c (Proc.devRef .tc main_arg7) = W0 m ρ c (Proc.devRef .tc main_arg7) := by
  show StableHlo.after hostOps0 (W0 m ρ c) (Proc.devRef .tc main_arg7) = _
  after_results
theorem W1_arg9 : W1 m ρ c (Proc.devRef .tc main_arg9) = W0 m ρ c (Proc.devRef .tc main_arg9) := by
  show StableHlo.after hostOps0 (W0 m ρ c) (Proc.devRef .tc main_arg9) = _
  after_results
theorem W1_arg11 : W1 m ρ c (Proc.devRef .tc main_arg11) = W0 m ρ c (Proc.devRef .tc main_arg11) := by
  show StableHlo.after hostOps0 (W0 m ρ c) (Proc.devRef .tc main_arg11) = _
  after_results
theorem W1_arg13 : W1 m ρ c (Proc.devRef .tc main_arg13) = W0 m ρ c (Proc.devRef .tc main_arg13) := by
  show StableHlo.after hostOps0 (W0 m ρ c) (Proc.devRef .tc main_arg13) = _
  after_results

theorem W1_v0 : W1 m ρ c (Proc.devRef .tc main_v0) = tr (W0 m ρ c (Proc.devRef .tc main_arg4)) := by
  show StableHlo.after hostOps0 (W0 m ρ c) (Proc.devRef .tc main_v0) = _
  after_results
  all_goals rfl
theorem W1_v1 : W1 m ρ c (Proc.devRef .tc main_v1) = tr (W0 m ρ c (Proc.devRef .tc main_arg6)) := by
  show StableHlo.after hostOps0 (W0 m ρ c) (Proc.devRef .tc main_v1) = _
  after_results
  all_goals rfl
theorem W1_v2 : W1 m ρ c (Proc.devRef .tc main_v2) = tr (W0 m ρ c (Proc.devRef .tc main_arg8)) := by
  show StableHlo.after hostOps0 (W0 m ρ c) (Proc.devRef .tc main_v2) = _
  after_results
  all_goals rfl
theorem W1_v3 : W1 m ρ c (Proc.devRef .tc main_v3) = tr (W0 m ρ c (Proc.devRef .tc main_arg10)) := by
  show StableHlo.after hostOps0 (W0 m ρ c) (Proc.devRef .tc main_v3) = _
  after_results
  all_goals rfl
theorem W1_v4 : W1 m ρ c (Proc.devRef .tc main_v4) = tr (W0 m ρ c (Proc.devRef .tc main_arg12)) := by
  show StableHlo.after hostOps0 (W0 m ρ c) (Proc.devRef .tc main_v4) = _
  after_results
  all_goals rfl

/-! ## After the first launch: the three node projections -/

theorem W2_arg0 : W2 m ρ c (Proc.devRef .tc main_arg0) = W0 m ρ c (Proc.devRef .tc main_arg0) :=
  ((W2_arr m ρ c 0).trans (((dat0 (V1 m ρ) c).arrAt_in 0 rfl _).trans (A_eq0 (V1 m ρ) c 0))).trans (W1_arg0 m ρ c)
theorem W2_arg1 : W2 m ρ c (Proc.devRef .tc main_arg1) = W0 m ρ c (Proc.devRef .tc main_arg1) :=
  (W2_of_ne m ρ c main_arg1 (by decide)).trans (W1_arg1 m ρ c)
theorem W2_arg2 : W2 m ρ c (Proc.devRef .tc main_arg2) = W0 m ρ c (Proc.devRef .tc main_arg2) :=
  (W2_of_ne m ρ c main_arg2 (by decide)).trans (W1_arg2 m ρ c)
theorem W2_arg3 : W2 m ρ c (Proc.devRef .tc main_arg3) = W0 m ρ c (Proc.devRef .tc main_arg3) :=
  (W2_of_ne m ρ c main_arg3 (by decide)).trans (W1_arg3 m ρ c)
theorem W2_arg5 : W2 m ρ c (Proc.devRef .tc main_arg5) = W0 m ρ c (Proc.devRef .tc main_arg5) :=
  (W2_of_ne m ρ c main_arg5 (by decide)).trans (W1_arg5 m ρ c)
theorem W2_arg9 : W2 m ρ c (Proc.devRef .tc main_arg9) = W0 m ρ c (Proc.devRef .tc main_arg9) :=
  (W2_of_ne m ρ c main_arg9 (by decide)).trans (W1_arg9 m ρ c)
theorem W2_v0 : W2 m ρ c (Proc.devRef .tc main_v0) = tr (W0 m ρ c (Proc.devRef .tc main_arg4)) :=
  (W2_of_ne m ρ c main_v0 (by decide)).trans (W1_v0 m ρ c)
theorem W2_v2 : W2 m ρ c (Proc.devRef .tc main_v2) = tr (W0 m ρ c (Proc.devRef .tc main_arg8)) :=
  (W2_of_ne m ρ c main_v2 (by decide)).trans (W1_v2 m ρ c)

/-- The first projection `h·Wbᵀ + bb`. -/
theorem W2_v5_0 : W2 m ρ c (Proc.devRef .tc main_v5_0)
    = affine (W0 m ρ c (Proc.devRef .tc main_arg0)) (tr (W0 m ρ c (Proc.devRef .tc main_arg6)))
        (W0 m ρ c (Proc.devRef .tc main_arg7)) := by
  refine ((W2_arr m ρ c 7).trans (NodeProj.final7 (V1 m ρ) c)).trans ?_
  show affine (W1 m ρ c (Proc.devRef .tc main_arg0)) (W1 m ρ c (Proc.devRef .tc main_v1))
    (W1 m ρ c (Proc.devRef .tc main_arg7)) = _
  rw [W1_arg0, W1_v1, W1_arg7]

/-- The second projection `h·Wdᵀ + bd`. -/
theorem W2_v5_1 : W2 m ρ c (Proc.devRef .tc main_v5_1)
    = affine (W0 m ρ c (Proc.devRef .tc main_arg0)) (tr (W0 m ρ c (Proc.devRef .tc main_arg10)))
        (W0 m ρ c (Proc.devRef .tc main_arg11)) := by
  refine ((W2_arr m ρ c 8).trans (NodeProj.final8 (V1 m ρ) c)).trans ?_
  show affine (W1 m ρ c (Proc.devRef .tc main_arg0)) (W1 m ρ c (Proc.devRef .tc main_v3))
    (W1 m ρ c (Proc.devRef .tc main_arg11)) = _
  rw [W1_arg0, W1_v3, W1_arg11]

/-- The third projection `h·Weᵀ + be`. -/
theorem W2_v5_2 : W2 m ρ c (Proc.devRef .tc main_v5_2)
    = affine (W0 m ρ c (Proc.devRef .tc main_arg0)) (tr (W0 m ρ c (Proc.devRef .tc main_arg12)))
        (W0 m ρ c (Proc.devRef .tc main_arg13)) := by
  refine ((W2_arr m ρ c 9).trans (NodeProj.final9 (V1 m ρ) c)).trans ?_
  show affine (W1 m ρ c (Proc.devRef .tc main_arg0)) (W1 m ρ c (Proc.devRef .tc main_v4))
    (W1 m ρ c (Proc.devRef .tc main_arg13)) = _
  rw [W1_arg0, W1_v4, W1_arg13]

/-! ## After the second host stretch: the three gathered projections -/

theorem W3_arg0 : W3 m ρ c (Proc.devRef .tc main_arg0) = W2 m ρ c (Proc.devRef .tc main_arg0) := by
  show StableHlo.after hostOps1 (W2 m ρ c) (Proc.devRef .tc main_arg0) = _
  after_results
theorem W3_arg1 : W3 m ρ c (Proc.devRef .tc main_arg1) = W2 m ρ c (Proc.devRef .tc main_arg1) := by
  show StableHlo.after hostOps1 (W2 m ρ c) (Proc.devRef .tc main_arg1) = _
  after_results
theorem W3_arg3 : W3 m ρ c (Proc.devRef .tc main_arg3) = W2 m ρ c (Proc.devRef .tc main_arg3) := by
  show StableHlo.after hostOps1 (W2 m ρ c) (Proc.devRef .tc main_arg3) = _
  after_results
theorem W3_arg5 : W3 m ρ c (Proc.devRef .tc main_arg5) = W2 m ρ c (Proc.devRef .tc main_arg5) := by
  show StableHlo.after hostOps1 (W2 m ρ c) (Proc.devRef .tc main_arg5) = _
  after_results
theorem W3_arg9 : W3 m ρ c (Proc.devRef .tc main_arg9) = W2 m ρ c (Proc.devRef .tc main_arg9) := by
  show StableHlo.after hostOps1 (W2 m ρ c) (Proc.devRef .tc main_arg9) = _
  after_results
theorem W3_v0 : W3 m ρ c (Proc.devRef .tc main_v0) = W2 m ρ c (Proc.devRef .tc main_v0) := by
  show StableHlo.after hostOps1 (W2 m ρ c) (Proc.devRef .tc main_v0) = _
  after_results
theorem W3_v2 : W3 m ρ c (Proc.devRef .tc main_v2) = W2 m ρ c (Proc.devRef .tc main_v2) := by
  show StableHlo.after hostOps1 (W2 m ρ c) (Proc.devRef .tc main_v2) = _
  after_results

/-- The second projection gathered by the first endpoint. -/
theorem W3_v12 : W3 m ρ c (Proc.devRef .tc main_v12)
    = gatherRows (W2 m ρ c (Proc.devRef .tc main_v5_1)) (rowIndex (W2 m ρ c (Proc.devRef .tc main_arg2))) := by
  show StableHlo.after hostOps1 (W2 m ρ c) (Proc.devRef .tc main_v12) = _
  after_results
  all_goals rfl

/-- The third projection gathered by the second endpoint. -/
theorem W3_v19 : W3 m ρ c (Proc.devRef .tc main_v19)
    = gatherRows (W2 m ρ c (Proc.devRef .tc main_v5_2)) (rowIndex (W2 m ρ c (Proc.devRef .tc main_arg3))) := by
  show StableHlo.after hostOps1 (W2 m ρ c) (Proc.devRef .tc main_v19) = _
  after_results_simp
  all_goals rfl

/-- The first projection gathered by the first endpoint. -/
theorem W3_v26 : W3 m ρ c (Proc.devRef .tc main_v26)
    = gatherRows (W2 m ρ c (Proc.devRef .tc main_v5_0)) (rowIndex (W2 m ρ c (Proc.devRef .tc main_arg2))) := by
  show StableHlo.after hostOps1 (W2 m ρ c) (Proc.devRef .tc main_v26) = _
  after_results_simp
  all_goals rfl

/-! ## After the second launch: the gate, the message and the new edge features -/

theorem W4_arg0 : W4 m ρ c (Proc.devRef .tc main_arg0) = W0 m ρ c (Proc.devRef .tc main_arg0) :=
  (W4_of_ne m ρ c main_arg0 (by decide)).trans ((W3_arg0 m ρ c).trans (W2_arg0 m ρ c))
theorem W4_arg3 : W4 m ρ c (Proc.devRef .tc main_arg3) = W0 m ρ c (Proc.devRef .tc main_arg3) :=
  (W4_of_ne m ρ c main_arg3 (by decide)).trans ((W3_arg3 m ρ c).trans (W2_arg3 m ρ c))
theorem W4_arg5 : W4 m ρ c (Proc.devRef .tc main_arg5) = W0 m ρ c (Proc.devRef .tc main_arg5) :=
  (W4_of_ne m ρ c main_arg5 (by decide)).trans ((W3_arg5 m ρ c).trans (W2_arg5 m ρ c))
theorem W4_v0 : W4 m ρ c (Proc.devRef .tc main_v0) = tr (W0 m ρ c (Proc.devRef .tc main_arg4)) :=
  (W4_of_ne m ρ c main_v0 (by decide)).trans ((W3_v0 m ρ c).trans (W2_v0 m ρ c))

/-- The three gathered projections in terms of the arguments. -/
theorem W3_v12' : W3 m ρ c (Proc.devRef .tc main_v12)
    = gatherRows (affine (W0 m ρ c (Proc.devRef .tc main_arg0)) (tr (W0 m ρ c (Proc.devRef .tc main_arg10)))
        (W0 m ρ c (Proc.devRef .tc main_arg11))) (rowIndex (W0 m ρ c (Proc.devRef .tc main_arg2))) := by
  rw [W3_v12, W2_v5_1, W2_arg2]
theorem W3_v19' : W3 m ρ c (Proc.devRef .tc main_v19)
    = gatherRows (affine (W0 m ρ c (Proc.devRef .tc main_arg0)) (tr (W0 m ρ c (Proc.devRef .tc main_arg12)))
        (W0 m ρ c (Proc.devRef .tc main_arg13))) (rowIndex (W0 m ρ c (Proc.devRef .tc main_arg3))) := by
  rw [W3_v19, W2_v5_2, W2_arg3]
theorem W3_v26' : W3 m ρ c (Proc.devRef .tc main_v26)
    = gatherRows (affine (W0 m ρ c (Proc.devRef .tc main_arg0)) (tr (W0 m ρ c (Proc.devRef .tc main_arg6)))
        (W0 m ρ c (Proc.devRef .tc main_arg7))) (rowIndex (W0 m ρ c (Proc.devRef .tc main_arg2))) := by
  rw [W3_v26, W2_v5_0, W2_arg2]

/-- The gate's inputs in terms of the arguments: the edge features, the transposed matrix, the bias. -/
theorem W3_arg1' : W3 m ρ c (Proc.devRef .tc main_arg1) = W0 m ρ c (Proc.devRef .tc main_arg1) :=
  (W3_arg1 m ρ c).trans (W2_arg1 m ρ c)
theorem W3_v2' : W3 m ρ c (Proc.devRef .tc main_v2) = tr (W0 m ρ c (Proc.devRef .tc main_arg8)) :=
  (W3_v2 m ρ c).trans (W2_v2 m ρ c)
theorem W3_arg9' : W3 m ρ c (Proc.devRef .tc main_arg9) = W0 m ρ c (Proc.devRef .tc main_arg9) :=
  (W3_arg9 m ρ c).trans (W2_arg9 m ρ c)

/-- The second projection gathered by the first endpoint, the third by the second, the first by the first. -/
abbrev dSrc : (⟨S600000x128, .f32⟩ : BufTy).Contents (Elt Ideal) :=
  gatherRows (affine (W0 m ρ c (Proc.devRef .tc main_arg0)) (tr (W0 m ρ c (Proc.devRef .tc main_arg10)))
    (W0 m ρ c (Proc.devRef .tc main_arg11))) (rowIndex (W0 m ρ c (Proc.devRef .tc main_arg2)))
abbrev eDst : (⟨S600000x128, .f32⟩ : BufTy).Contents (Elt Ideal) :=
  gatherRows (affine (W0 m ρ c (Proc.devRef .tc main_arg0)) (tr (W0 m ρ c (Proc.devRef .tc main_arg12)))
    (W0 m ρ c (Proc.devRef .tc main_arg13))) (rowIndex (W0 m ρ c (Proc.devRef .tc main_arg3)))
abbrev bSrc : (⟨S600000x128, .f32⟩ : BufTy).Contents (Elt Ideal) :=
  gatherRows (affine (W0 m ρ c (Proc.devRef .tc main_arg0)) (tr (W0 m ρ c (Proc.devRef .tc main_arg6)))
    (W0 m ρ c (Proc.devRef .tc main_arg7))) (rowIndex (W0 m ρ c (Proc.devRef .tc main_arg2)))

/-- The gate array. -/
theorem W4_v27_0 : W4 m ρ c (Proc.devRef .tc main_v27_0)
    = truncf .bf16 (gate (W0 m ρ c (Proc.devRef .tc main_arg1)) (tr (W0 m ρ c (Proc.devRef .tc main_arg8)))
        (W0 m ρ c (Proc.devRef .tc main_arg9)) (dSrc m ρ c) (eDst m ρ c)) bitsLt_bf16_f32 := by
  refine ((W4_arr m ρ c 6).trans (EdgeGate.final6 (V3 m ρ) c)).trans ?_
  show truncf .bf16 (gate (W3 m ρ c (Proc.devRef .tc main_arg1)) (W3 m ρ c (Proc.devRef .tc main_v2))
    (W3 m ρ c (Proc.devRef .tc main_arg9)) (W3 m ρ c (Proc.devRef .tc main_v12))
    (W3 m ρ c (Proc.devRef .tc main_v19))) bitsLt_bf16_f32 = _
  rw [W3_arg1', W3_v2', W3_arg9', W3_v12', W3_v19']

/-- The message array. -/
theorem W4_v27_1 : W4 m ρ c (Proc.devRef .tc main_v27_1)
    = truncf .bf16 (message (W0 m ρ c (Proc.devRef .tc main_arg1)) (tr (W0 m ρ c (Proc.devRef .tc main_arg8)))
        (W0 m ρ c (Proc.devRef .tc main_arg9)) (dSrc m ρ c) (eDst m ρ c) (bSrc m ρ c)) bitsLt_bf16_f32 := by
  refine ((W4_arr m ρ c 7).trans (EdgeGate.final7 (V3 m ρ) c)).trans ?_
  show truncf .bf16 (message (W3 m ρ c (Proc.devRef .tc main_arg1)) (W3 m ρ c (Proc.devRef .tc main_v2))
    (W3 m ρ c (Proc.devRef .tc main_arg9)) (W3 m ρ c (Proc.devRef .tc main_v12))
    (W3 m ρ c (Proc.devRef .tc main_v19)) (W3 m ρ c (Proc.devRef .tc main_v26))) bitsLt_bf16_f32 = _
  rw [W3_arg1', W3_v2', W3_arg9', W3_v12', W3_v19', W3_v26']

/-- The new edge features. -/
theorem W4_v27_2 : W4 m ρ c (Proc.devRef .tc main_v27_2)
    = edgeOut (W0 m ρ c (Proc.devRef .tc main_arg1)) (tr (W0 m ρ c (Proc.devRef .tc main_arg8)))
        (W0 m ρ c (Proc.devRef .tc main_arg9)) (dSrc m ρ c) (eDst m ρ c) := by
  refine ((W4_arr m ρ c 8).trans (EdgeGate.final8 (V3 m ρ) c)).trans ?_
  show edgeOut (W3 m ρ c (Proc.devRef .tc main_arg1)) (W3 m ρ c (Proc.devRef .tc main_v2))
    (W3 m ρ c (Proc.devRef .tc main_arg9)) (W3 m ρ c (Proc.devRef .tc main_v12))
    (W3 m ρ c (Proc.devRef .tc main_v19)) = _
  rw [W3_arg1', W3_v2', W3_arg9', W3_v12', W3_v19']

/-! ## After the third host stretch: the two scatter sums -/

theorem W5_arg0 : W5 m ρ c (Proc.devRef .tc main_arg0) = W4 m ρ c (Proc.devRef .tc main_arg0) := by
  show StableHlo.after hostOps2 (W4 m ρ c) (Proc.devRef .tc main_arg0) = _
  after_results
theorem W5_arg5 : W5 m ρ c (Proc.devRef .tc main_arg5) = W4 m ρ c (Proc.devRef .tc main_arg5) := by
  show StableHlo.after hostOps2 (W4 m ρ c) (Proc.devRef .tc main_arg5) = _
  after_results
theorem W5_v0 : W5 m ρ c (Proc.devRef .tc main_v0) = W4 m ρ c (Proc.devRef .tc main_v0) := by
  show StableHlo.after hostOps2 (W4 m ρ c) (Proc.devRef .tc main_v0) = _
  after_results
theorem W5_v27_2 : W5 m ρ c (Proc.devRef .tc main_v27_2) = W4 m ρ c (Proc.devRef .tc main_v27_2) := by
  show StableHlo.after hostOps2 (W4 m ρ c) (Proc.devRef .tc main_v27_2) = _
  after_results

/-- The messages added into the rows the second endpoint names. -/
theorem W5_v31 : W5 m ρ c (Proc.devRef .tc main_v31)
    = scatterRows (colIndex (W4 m ρ c (Proc.devRef .tc main_arg3)))
        (extf (F := Ideal) (s := S600000x128) .f32 (W4 m ρ c (Proc.devRef .tc main_v27_1)) bitsLt_bf16_f32) := by
  show StableHlo.after hostOps2 (W4 m ρ c) (Proc.devRef .tc main_v31) = _
  after_results
  all_goals rfl

/-- The gates added into the rows the second endpoint names. -/
theorem W5_v35 : W5 m ρ c (Proc.devRef .tc main_v35)
    = scatterRows (colIndex (W4 m ρ c (Proc.devRef .tc main_arg3)))
        (extf (F := Ideal) (s := S600000x128) .f32 (W4 m ρ c (Proc.devRef .tc main_v27_0)) bitsLt_bf16_f32) := by
  show StableHlo.after hostOps2 (W4 m ρ c) (Proc.devRef .tc main_v35) = _
  after_results
  all_goals rfl

/-- Widening what was narrowed is the identity on the extended reals. -/
theorem extf_truncf (x : FVec Ideal S600000x128 .f32) :
    extf .f32 (truncf .bf16 x bitsLt_bf16_f32) bitsLt_bf16_f32 = x := rfl

/-- The message sum and the gate sum in terms of the arguments. -/
abbrev msgSum : (⟨S50000x128, .f32⟩ : BufTy).Contents (Elt Ideal) :=
  scatterRows (colIndex (W0 m ρ c (Proc.devRef .tc main_arg3)))
    (message (W0 m ρ c (Proc.devRef .tc main_arg1)) (tr (W0 m ρ c (Proc.devRef .tc main_arg8)))
      (W0 m ρ c (Proc.devRef .tc main_arg9)) (dSrc m ρ c) (eDst m ρ c) (bSrc m ρ c))
abbrev gateSum : (⟨S50000x128, .f32⟩ : BufTy).Contents (Elt Ideal) :=
  scatterRows (colIndex (W0 m ρ c (Proc.devRef .tc main_arg3)))
    (gate (W0 m ρ c (Proc.devRef .tc main_arg1)) (tr (W0 m ρ c (Proc.devRef .tc main_arg8)))
      (W0 m ρ c (Proc.devRef .tc main_arg9)) (dSrc m ρ c) (eDst m ρ c))

theorem W5_v31' : W5 m ρ c (Proc.devRef .tc main_v31) = msgSum m ρ c := by
  rw [W5_v31, W4_arg3, W4_v27_1, extf_truncf]
theorem W5_v35' : W5 m ρ c (Proc.devRef .tc main_v35) = gateSum m ρ c := by
  rw [W5_v35, W4_arg3, W4_v27_0, extf_truncf]

/-! ## After the third launch: the two results -/

/-- THE NODE RESULT as a function of the arguments. -/
theorem node_result : W6 m ρ c (Proc.devRef .tc main_v36)
    = nodeOut (W0 m ρ c (Proc.devRef .tc main_arg0)) (tr (W0 m ρ c (Proc.devRef .tc main_arg4)))
        (W0 m ρ c (Proc.devRef .tc main_arg5)) (msgSum m ρ c) (gateSum m ρ c) := by
  refine ((W6_arr m ρ c 5).trans (NodeOut.final5 (V5 m ρ) c)).trans ?_
  show nodeOut (W5 m ρ c (Proc.devRef .tc main_arg0)) (W5 m ρ c (Proc.devRef .tc main_v0))
    (W5 m ρ c (Proc.devRef .tc main_arg5)) (W5 m ρ c (Proc.devRef .tc main_v31))
    (W5 m ρ c (Proc.devRef .tc main_v35)) = _
  rw [W5_arg0, W4_arg0, W5_v0, W4_v0, W5_arg5, W4_arg5, W5_v31', W5_v35']

/-- THE EDGE RESULT as a function of the arguments. -/
theorem edge_result : W6 m ρ c (Proc.devRef .tc main_v27_2)
    = edgeOut (W0 m ρ c (Proc.devRef .tc main_arg1)) (tr (W0 m ρ c (Proc.devRef .tc main_arg8)))
        (W0 m ρ c (Proc.devRef .tc main_arg9)) (dSrc m ρ c) (eDst m ρ c) :=
  (W6_of_ne m ρ c main_v27_2 (by decide)).trans ((W5_v27_2 m ρ c).trans (W4_v27_2 m ρ c))

end Cert.KernelIdeal.Whole

end
-- ==== Proof.RefValue.lean ====
/-
  The reference program's two results, arranged as the same whole-array functions as the kernel program's.

  The reference computes the four node projections and the edge projection as `x·Wᵀ + b` with one matrix product over
  the whole array, gathers three of them by the edge endpoints, spells the sigmoid `1/(1 + exp(-a))` with the float
  one (the real number 1), scatters and adds the messages and the gates, and finishes each feature with
  `f + x·(1/(1 + exp(-x)))`. On the extended reals `1/(1 + exp(-a))` is the sigmoid by definition, and the host's
  quotient is the quotient, so stage by stage the reference's arrays are the functions `affine`, `gate`, `message`,
  `edgeOut`, `nodeOut` of the arguments; the gathers and scatters are carried as they are.
-/
import proofs.«151684_j46102178955281_2_alg».proof.Proof.Gen.ReferenceIdeal.Read
import proofs.«151684_j46102178955281_2_alg».proof.Proof.Gate
import Idealize.ShloMosaic.Lib.IdealHost

noncomputable section

namespace Cert.ReferenceIdeal.Whole

open Idealize.ShloMosaic Idealize.ShloMosaic.ValueIdx
open Cert.ReferenceIdeal Cert.ReferenceIdeal.Gen Cert.ReferenceIdeal.Read Cert.Rows

/-! ## Constants spread over an array, the host's quotient, the sigmoid's spelling -/

/-- A float constant spread over an array is the array of that constant. -/
theorem const_bcast (S : Shape) (h : S_.BroadcastsInDim S (![] : Fin 0 → Fin S.rank)) (w : BitVec 32) :
    broadcastInDim S ![] h (constant (F := Ideal) S_ .f32 w) = broadcast S (Scalar.ofBits (F := Ideal) .f32 w) :=
  funext fun i => by
    rw [broadcastInDim_apply ![] h _ i ix0 (fun a => a.elim0)]
    rfl

/-- The float one spread over an array reads `1` everywhere. -/
theorem one_bcast (S : Shape) (h : S_.BroadcastsInDim S (![] : Fin 0 → Fin S.rank)) (i : S.Idx) :
    broadcastInDim S ![] h (constant (F := Ideal) S_ .f32 0x3F800000#32) i = (1 : Ideal .f32) := by
  rw [broadcastInDim_apply ![] h _ i ix0 (fun a => a.elim0)]
  exact Ideal.ofBits_one_f32

/-- `1/(1 + exp(-x))`, spelt with host operations and the float one, is the sigmoid. -/
theorem sigmoid_eq (S : Shape) (h : S_.BroadcastsInDim S (![] : Fin 0 → Fin S.rank)) (X : FVec Ideal S .f32) :
    Host.divf (broadcastInDim S ![] h (constant (F := Ideal) S_ .f32 0x3F800000#32))
        (addf (broadcastInDim S ![] h (constant (F := Ideal) S_ .f32 0x3F800000#32)) (Host.exp (Host.negf X)))
      = logistic X := by
  funext i
  show FloatOps.hostDivf (broadcastInDim S ![] h (constant (F := Ideal) S_ .f32 0x3F800000#32) i)
      (FloatOps.addf (broadcastInDim S ![] h (constant (F := Ideal) S_ .f32 0x3F800000#32) i)
        (FloatOps.hostUnary .exp (FloatOps.hostNegf (X i)))) = FloatOps.logistic (X i)
  rw [one_bcast S h i]
  rfl

/-- The host's quotient of arrays is the quotient of arrays. -/
theorem hostDivf_eq {S : Shape} (a b : FVec Ideal S .f32) : Host.divf a b = divf a b := rfl

/-! ## The projections -/

/-- A node projection: `h·Wᵀ + b`. -/
theorem v4_eq (x0 : (⟨S50000x128, .f32⟩ : BufTy).Contents (Elt Ideal)) (W : (⟨S128x128, .f32⟩ : BufTy).Contents (Elt Ideal))
    (b : (⟨S128, .f32⟩ : BufTy).Contents (Elt Ideal)) :
    val_main_v4 (F := Ideal) x0 W b = affine x0 (val_main_v0 (F := Ideal) W) b := by
  funext i
  obtain ⟨p, q, rfl⟩ : ∃ (p : Fin 50000) (q : Fin 128), i = ix2 p q := ⟨i 0, i 1, eq_ix2 i⟩
  have hl : ∀ k : Fin 128, lidx_main_v1 (ix2 p q) k = ix2 p k := fun k =>
    funext fun a => Fin.ext (by match a with | ⟨0, _⟩ => rfl | ⟨1, _⟩ => rfl)
  have hr : ∀ k : Fin 128, ridx_main_v1 (ix2 p q) k = ix2 k q := fun k =>
    funext fun a => Fin.ext (by match a with | ⟨0, _⟩ => rfl | ⟨1, _⟩ => rfl)
  have hb : idx_main_v2 (idx_main_v3 (ix2 p q)) = ix1 q :=
    funext fun a => Fin.ext (by match a with | ⟨0, _⟩ => rfl)
  rw [val_main_v4_apply, val_main_v1_apply, val_main_v3_apply, val_main_v2_apply, affine_apply]
  refine congrArg₂ (· + ·) (Finset.sum_congr rfl fun k _ => ?_) ?_
  · rw [hl, hr]
  · rw [hb]

theorem v9_eq (x0 : (⟨S50000x128, .f32⟩ : BufTy).Contents (Elt Ideal)) (W : (⟨S128x128, .f32⟩ : BufTy).Contents (Elt Ideal))
    (b : (⟨S128, .f32⟩ : BufTy).Contents (Elt Ideal)) :
    val_main_v9 (F := Ideal) x0 W b = affine x0 (val_main_v0 (F := Ideal) W) b :=
  (rfl : val_main_v9 (F := Ideal) x0 W b = val_main_v4 (F := Ideal) x0 W b).trans (v4_eq x0 W b)

theorem v14_eq (x0 : (⟨S50000x128, .f32⟩ : BufTy).Contents (Elt Ideal)) (W : (⟨S128x128, .f32⟩ : BufTy).Contents (Elt Ideal))
    (b : (⟨S128, .f32⟩ : BufTy).Contents (Elt Ideal)) :
    val_main_v14 (F := Ideal) x0 W b = affine x0 (val_main_v0 (F := Ideal) W) b :=
  (rfl : val_main_v14 (F := Ideal) x0 W b = val_main_v4 (F := Ideal) x0 W b).trans (v4_eq x0 W b)

theorem v19_eq (x0 : (⟨S50000x128, .f32⟩ : BufTy).Contents (Elt Ideal)) (W : (⟨S128x128, .f32⟩ : BufTy).Contents (Elt Ideal))
    (b : (⟨S128, .f32⟩ : BufTy).Contents (Elt Ideal)) :
    val_main_v19 (F := Ideal) x0 W b = affine x0 (val_main_v0 (F := Ideal) W) b :=
  (rfl : val_main_v19 (F := Ideal) x0 W b = val_main_v4 (F := Ideal) x0 W b).trans (v4_eq x0 W b)

/-- The edge projection: `e·Wᵀ + b`. -/
theorem v24_eq (x1 : (⟨S600000x128, .f32⟩ : BufTy).Contents (Elt Ideal)) (W : (⟨S128x128, .f32⟩ : BufTy).Contents (Elt Ideal))
    (b : (⟨S128, .f32⟩ : BufTy).Contents (Elt Ideal)) :
    val_main_v24 (F := Ideal) x1 W b = affine x1 (val_main_v0 (F := Ideal) W) b := by
  funext i
  obtain ⟨p, q, rfl⟩ : ∃ (p : Fin 600000) (q : Fin 128), i = ix2 p q := ⟨i 0, i 1, eq_ix2 i⟩
  have hl : ∀ k : Fin 128, lidx_main_v21 (ix2 p q) k = ix2 p k := fun k =>
    funext fun a => Fin.ext (by match a with | ⟨0, _⟩ => rfl | ⟨1, _⟩ => rfl)
  have hr : ∀ k : Fin 128, ridx_main_v21 (ix2 p q) k = ix2 k q := fun k =>
    funext fun a => Fin.ext (by match a with | ⟨0, _⟩ => rfl | ⟨1, _⟩ => rfl)
  have hb : idx_main_v22 (idx_main_v23 (ix2 p q)) = ix1 q :=
    funext fun a => Fin.ext (by match a with | ⟨0, _⟩ => rfl)
  rw [val_main_v24_apply, val_main_v21_apply, val_main_v23_apply, val_main_v22_apply, affine_apply]
  refine congrArg₂ (· + ·) (Finset.sum_congr rfl fun k _ => ?_) ?_
  · rw [hl, hr]
    rfl
  · rw [hb]

/-! ## The stages, in the arguments -/

variable (x0 : (⟨S50000x128, .f32⟩ : BufTy).Contents (Elt Ideal)) (x1 : (⟨S600000x128, .f32⟩ : BufTy).Contents (Elt Ideal))
  (x2 x3 : (⟨S600000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))

/-- The second projection gathered by the first endpoint, the third by the second, the first by the first. -/
abbrev dSrc : (⟨S600000x128, .f32⟩ : BufTy).Contents (Elt Ideal) :=
  Host.gather gather_S50000x128_S600000x1_S600000x128_1_0_n_n_0_1_1128
    (affine x0 (val_main_v0 (F := Ideal) x10) x11) (val_main_v30 (F := Ideal) x2)
abbrev eDst : (⟨S600000x128, .f32⟩ : BufTy).Contents (Elt Ideal) :=
  Host.gather gather_S50000x128_S600000x1_S600000x128_1_0_n_n_0_1_1128
    (affine x0 (val_main_v0 (F := Ideal) x12) x13) (val_main_v37 (F := Ideal) x3)
abbrev bSrc : (⟨S600000x128, .f32⟩ : BufTy).Contents (Elt Ideal) :=
  Host.gather gather_S50000x128_S600000x1_S600000x128_1_0_n_n_0_1_1128
    (affine x0 (val_main_v0 (F := Ideal) x6) x7) (val_main_v52 (F := Ideal) x2)

/-- The gate's argument. -/
theorem v40_eq : val_main_v40 (F := Ideal) x0 x1 x2 x3 x8 x9 x10 x11 x12 x13
    = preGate x1 (val_main_v0 (F := Ideal) x8) x9 (dSrc x0 x2 x10 x11) (eDst x0 x3 x12 x13) := by
  unfold val_main_v40 val_main_v39 val_main_v31 val_main_v38
  rw [v14_eq, v19_eq, v24_eq]
  rfl

/-- The gate. -/
theorem v46_eq : val_main_v46 (F := Ideal) x0 x1 x2 x3 x8 x9 x10 x11 x12 x13
    = gate x1 (val_main_v0 (F := Ideal) x8) x9 (dSrc x0 x2 x10 x11) (eDst x0 x3 x12 x13) := by
  unfold val_main_v46 val_main_v45 val_main_v44 val_main_v43 val_main_v42 val_main_v41 val_main_cst val_main_cst_3
  rw [v40_eq]
  exact sigmoid_eq _ _ _

/-- The message. -/
theorem v54_eq : val_main_v54 (F := Ideal) x0 x1 x2 x3 x6 x7 x8 x9 x10 x11 x12 x13
    = message x1 (val_main_v0 (F := Ideal) x8) x9 (dSrc x0 x2 x10 x11) (eDst x0 x3 x12 x13) (bSrc x0 x2 x6 x7) := by
  unfold val_main_v54 val_main_v53
  rw [v9_eq, v46_eq]
  rfl

/-- The message sum and the gate sum. -/
abbrev msgSum : (⟨S50000x128, .f32⟩ : BufTy).Contents (Elt Ideal) :=
  Host.scatterAdd scatter_S50000x128_S600000x1_S600000x128_1_0_0_1 (val_main_v55 (F := Ideal)) (val_main_v56 (F := Ideal) x3)
    (message x1 (val_main_v0 (F := Ideal) x8) x9 (dSrc x0 x2 x10 x11) (eDst x0 x3 x12 x13) (bSrc x0 x2 x6 x7))
abbrev gateSum : (⟨S50000x128, .f32⟩ : BufTy).Contents (Elt Ideal) :=
  Host.scatterAdd scatter_S50000x128_S600000x1_S600000x128_1_0_0_1 (val_main_v58 (F := Ideal)) (val_main_v59 (F := Ideal) x3)
    (gate x1 (val_main_v0 (F := Ideal) x8) x9 (dSrc x0 x2 x10 x11) (eDst x0 x3 x12 x13))

theorem v57_eq : val_main_v57 (F := Ideal) x0 x1 x2 x3 x6 x7 x8 x9 x10 x11 x12 x13
    = msgSum x0 x1 x2 x3 x6 x7 x8 x9 x10 x11 x12 x13 := by
  unfold val_main_v57
  rw [v54_eq]

theorem v60_eq : val_main_v60 (F := Ideal) x0 x1 x2 x3 x8 x9 x10 x11 x12 x13
    = gateSum x0 x1 x2 x3 x8 x9 x10 x11 x12 x13 := by
  unfold val_main_v60
  rw [v46_eq]

/-- The node update's argument. -/
theorem v64_eq : val_main_v64 (F := Ideal) x0 x1 x2 x3 x4 x5 x6 x7 x8 x9 x10 x11 x12 x13
    = preNode x0 (val_main_v0 (F := Ideal) x4) x5 (msgSum x0 x1 x2 x3 x6 x7 x8 x9 x10 x11 x12 x13)
        (gateSum x0 x1 x2 x3 x8 x9 x10 x11 x12 x13) := by
  unfold val_main_v64 val_main_v63 val_main_v62 val_main_v61 val_main_cst_8
  rw [v4_eq, v57_eq, v60_eq, const_bcast, hostDivf_eq]
  rfl

/-- THE NODE RESULT as a function of the arguments. -/
theorem v66_eq : val_main_v66 (F := Ideal) x0 x1 x2 x3 x4 x5 x6 x7 x8 x9 x10 x11 x12 x13
    = nodeOut x0 (val_main_v0 (F := Ideal) x4) x5 (msgSum x0 x1 x2 x3 x6 x7 x8 x9 x10 x11 x12 x13)
        (gateSum x0 x1 x2 x3 x8 x9 x10 x11 x12 x13) := by
  unfold val_main_v66 val_main_v65 val_main_call0_v5 val_main_call0_v4 val_main_call0_v3 val_main_call0_v2
    val_main_call0_v1 val_main_call0_v0 val_main_call0_cst val_main_call0_cst_0
  rw [v64_eq, sigmoid_eq]
  rfl

/-- THE EDGE RESULT as a function of the arguments. -/
theorem v68_eq : val_main_v68 (F := Ideal) x0 x1 x2 x3 x8 x9 x10 x11 x12 x13
    = edgeOut x1 (val_main_v0 (F := Ideal) x8) x9 (dSrc x0 x2 x10 x11) (eDst x0 x3 x12 x13) := by
  unfold val_main_v68 val_main_v67 val_main_call1_v5 val_main_call1_v4 val_main_call1_v3 val_main_call1_v2
    val_main_call1_v1 val_main_call1_v0 val_main_call1_cst val_main_call1_cst_0
  rw [v40_eq, sigmoid_eq]
  rfl

end Cert.ReferenceIdeal.Whole

end
-- ==== Proof.lean ====
/-
  One message-passing layer with gated edges: the kernel program against its reference, on the extended reals.

  Both programs compute, from node features `h` (50000 × 128), edge features `e` (600000 × 128), the edges' endpoints
  `src`, `dst` and five `128 × 128` matrices with their biases,
    `a = (h·Wdᵀ + bd)[src] + (h·Weᵀ + be)[dst] + (e·Wcᵀ + bc)`,   `e' = e + a·σ(a)`,
    `u = Σ_{dst} (h·Wbᵀ + bb)[src]·σ(a)`,   `v = Σ_{dst} σ(a)`,
    `x = (h·Waᵀ + ba) + u/(v + ε)`,   `h' = h + x·σ(x)`,
  and return `(h', e')`. The kernel program does the dense stages in three launches over row blocks (the three node
  projections; the gate, the message and `e'`; then `h'`), with the gathers and the scatter sums between them on the
  host; the reference does every stage on the host over whole arrays. The row blocks fill the arrays and every dense
  stage is computed row by row, so each launch leaves the whole-array function; a change of float format is the
  identity here; the sigmoid is `1/(1 + exp(-·))` by definition; the gathers, the scatter sums and the index
  arithmetic are the same host functions on both sides. No sum is regrouped and nothing is cancelled, so the two results
  agree at every extended-real input and the precondition is not used.
-/
import proofs.«151684_j46102178955281_2_alg».proof.Defs
import proofs.«151684_j46102178955281_2_alg».proof.Proof.Gen.Kernel
import proofs.«151684_j46102178955281_2_alg».proof.Proof.Gen.Kernel.Frame
import proofs.«151684_j46102178955281_2_alg».proof.Proof.Gen.KernelIdeal
import proofs.«151684_j46102178955281_2_alg».proof.Proof.Gen.KernelIdeal.Frame
import proofs.«151684_j46102178955281_2_alg».proof.Proof.Gen.ReferenceIdeal
import proofs.«151684_j46102178955281_2_alg».proof.Proof.Gen.ReferenceIdeal.Run
import proofs.«151684_j46102178955281_2_alg».proof.Proof.Gen.ReferenceIdeal.Read
import proofs.«151684_j46102178955281_2_alg».proof.Proof.Gen.Pre_finite_inputs
import proofs.«151684_j46102178955281_2_alg».proof.Proof.KernelRun
import proofs.«151684_j46102178955281_2_alg».proof.Proof.KernelValue
import proofs.«151684_j46102178955281_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- The kernel program on the extended reals runs and keeps its arguments. -/
theorem frame_kernelIdeal : Cert.frame_KernelIdeal := fun m ρ _ => Cert.KernelIdeal.Gen.frame m ρ

/-- The reference on the extended reals runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From memories agreeing on the arguments both programs end with the same two results: the kernel program's are
    `nodeOut` and `edgeOut` of the arguments (its three launches' whole-array functions composed through the host
    stretches), and the reference's stages are the same functions. -/
theorem algebraic : Cert.algebraic_KernelIdeal_ReferenceIdeal := by
  intro m ρ m' ρ' _ hagree
  refine ⟨fun c => Cert.KernelIdeal.Gen.W6 m ρ c (Proc.devRef .tc Cert.KernelIdeal.main_v36),
    fun c => Cert.KernelIdeal.Gen.W6 m ρ c (Proc.devRef .tc Cert.KernelIdeal.main_v27_2),
    Cert.KernelIdeal.Run.run_results m ρ, ?_⟩
  refine (θ_run Cert.ReferenceIdeal.defs _ _).mono (fun r h c => ?_)
    (Cert.ReferenceIdeal.Value.run (F := Ideal) m' ρ')
  obtain ⟨h0, h1, h2, h3, h4, h5, h6, h7, h8, h9, h10, h11, h12, h13⟩ := hagree c
  refine ⟨(h c).1.trans ?_, (h c).2.1.trans ?_, (h c).2.2⟩
  · rw [Cert.ReferenceIdeal.Read.val_main_v66_eq, Cert.ReferenceIdeal.Whole.v66_eq,
      h0, h1, h2, h3, h4, h5, h6, h7, h8, h9, h10, h11, h12, h13]
    refine Eq.trans ?_ (Cert.KernelIdeal.Whole.node_result m ρ c).symm
    rfl
  · rw [Cert.ReferenceIdeal.Read.val_main_v68_eq, Cert.ReferenceIdeal.Whole.v68_eq,
      h0, h1, h2, h3, h8, h9, h10, h11, h12, h13]
    refine Eq.trans ?_ (Cert.KernelIdeal.Whole.edge_result m ρ c).symm
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
